-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100x768 : Shape := ⟨3, ![1024, 100, 768]⟩
abbrev S1024x1x768 : Shape := ⟨3, ![1024, 1, 768]⟩
abbrev S1 : Shape := ⟨1, ![1]⟩
abbrev S768 : Shape := ⟨1, ![768]⟩
abbrev S1x100 : Shape := ⟨2, ![1, 100]⟩
abbrev S_ : Shape := ⟨0, ![]⟩

class Facts : Prop where
  bcast_S_S1024x100x768 : S_.BroadcastsInDim S1024x100x768 (![] : Fin 0 → Fin S1024x100x768.rank)
  reducesTo_S1024x100x768_S_d0_1_2 : S1024x100x768.ReducesTo [0, 1, 2] S_
  h_S_ : 0 < S_.numel
  bcast_S_S1024x1x768 : S_.BroadcastsInDim S1024x1x768 (![] : Fin 0 → Fin S1024x1x768.rank)
  reducesTo_S1024x1x768_S_d0_1_2 : S1024x1x768.ReducesTo [0, 1, 2] S_
  bcast_S_S1 : S_.BroadcastsInDim S1 (![] : Fin 0 → Fin S1.rank)
  reducesTo_S1_S_d0 : S1.ReducesTo [0] S_
  bcast_S_S768 : S_.BroadcastsInDim S768 (![] : Fin 0 → Fin S768.rank)
  reducesTo_S768_S_d0 : S768.ReducesTo [0] S_
  bcast_S_S1x100 : S_.BroadcastsInDim S1x100 (![] : Fin 0 → Fin S1x100.rank)
  reducesTo_S1x100_S_d0_1 : S1x100.ReducesTo [0, 1] S_

variable [Facts]

def fn_part1 {F : FTy → Type} [FloatOps F] (main_arg4 : FVec F S768 .f32) (main_arg5 : FVec F S1x100 .f32) (main_arg6 : FVec F S1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1x100 .f32 := Host.absf main_arg5
  let main_cst_8 : FVec F S_ .f32 := constant S_ .f32 0x7F800000#32
  let main_v25 : FVec F S1x100 .f32 := broadcastInDim S1x100 ![] bcast_S_S1x100 main_cst_8
  let main_v26 : IVec S1x100 1 := cmpf .olt main_v24 main_v25
  let main_c_9 : IVec S_ 1 := constantI S_ 1 1#1
  let main_v27 : IVec S_ 1 := (fun x v => Host.reduce IntOp.andi x v reducesTo_S1x100_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1024x100x768 .f32) (main_arg1 : FVec F S1024x1x768 .f32) (main_arg2 : FVec F S1 .f32) (main_arg3 : FVec F S768 .f32) (main_arg4 : FVec F S768 .f32) (main_arg5 : FVec F S1x100 .f32) (main_arg6 : FVec F S1 .f32) : IVec S_ 1 :=
  let main_v0 : FVec F S1024x100x768 .f32 := Host.absf main_arg0
  let main_cst : FVec F S_ .f32 := constant S_ .f32 0x7F800000#32
  let main_v1 : FVec F S1024x100x768 .f32 := broadcastInDim S1024x100x768 ![] bcast_S_S1024x100x768 main_cst
  let main_v2 : IVec S1024x100x768 1 := cmpf .olt main_v0 main_v1
  let main_c : IVec S_ 1 := constantI S_ 1 1#1
  let main_v3 : IVec S_ 1 := (fun x v => Host.reduce IntOp.andi x v reducesTo_S1024x100x768_S_d0_1_2 h_S_) main_v2 main_c
  let main_v4 : FVec F S1024x1x768 .f32 := Host.absf main_arg1
  let main_cst_0 : FVec F S_ .f32 := constant S_ .f32 0x7F800000#32
  let main_v5 : FVec F S1024x1x768 .f32 := broadcastInDim S1024x1x768 ![] bcast_S_S1024x1x768 main_cst_0
  let main_v6 : IVec S1024x1x768 1 := cmpf .olt main_v4 main_v5
  let main_c_1 : IVec S_ 1 := constantI S_ 1 1#1
  let main_v7 : IVec S_ 1 := (fun x v => Host.reduce IntOp.andi x v reducesTo_S1024x1x768_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S1024x100x768 : Shape := ⟨3, ![1024, 100, 768]⟩
abbrev S1024x1x768 : Shape := ⟨3, ![1024, 1, 768]⟩
abbrev S1 : Shape := ⟨1, ![1]⟩
abbrev S768 : Shape := ⟨1, ![768]⟩
abbrev S1x100 : Shape := ⟨2, ![1, 100]⟩
abbrev S16x100x768 : Shape := ⟨3, ![16, 100, 768]⟩
abbrev S16x1x768 : Shape := ⟨3, ![16, 1, 768]⟩
abbrev S16x100 : Shape := ⟨2, ![16, 100]⟩
abbrev S16x100x1 : Shape := ⟨3, ![16, 100, 1]⟩
abbrev S1x1x768 : Shape := ⟨3, ![1, 1, 768]⟩
abbrev S16x100x100 : Shape := ⟨3, ![16, 100, 100]⟩
abbrev S16x1x100 : Shape := ⟨3, ![16, 1, 100]⟩
abbrev S16 : Shape := ⟨1, ![16]⟩
abbrev S16x1 : Shape := ⟨2, ![16, 1]⟩
abbrev S16x768 : Shape := ⟨2, ![16, 768]⟩

abbrev nBuf : Space → Nat
  | .hbm => 8
  | .vmem => 11
  | .smem => 0
  | _ => 0

abbrev bufTy : (tb : Table) → Fin (tcTables nBuf tb) → BufTy
  | .hbm, ⟨0, _⟩ => ⟨S1024x100x768, .f32⟩
  | .hbm, ⟨1, _⟩ => ⟨S1024x1x768, .f32⟩
  | .hbm, ⟨2, _⟩ => ⟨S1, .f32⟩
  | .hbm, ⟨3, _⟩ => ⟨S768, .f32⟩
  | .hbm, ⟨4, _⟩ => ⟨S768, .f32⟩
  | .hbm, ⟨5, _⟩ => ⟨S1x100, .f32⟩
  | .hbm, ⟨6, _⟩ => ⟨S1, .f32⟩
  | .hbm, ⟨7, _⟩ => ⟨S1024x1x768, .f32⟩
  | .local _ .vmem, ⟨0, _⟩ => ⟨S16x100x768, .f32⟩
  | .local _ .vmem, ⟨1, _⟩ => ⟨S16x100x768, .f32⟩
  | .local _ .vmem, ⟨2, _⟩ => ⟨S16x1x768, .f32⟩
  | .local _ .vmem, ⟨3, _⟩ => ⟨S16x1x768, .f32⟩
  | .local _ .vmem, ⟨4, _⟩ => ⟨S1x100, .f32⟩
  | .local _ .vmem, ⟨5, _⟩ => ⟨S1, .f32⟩
  | .local _ .vmem, ⟨6, _⟩ => ⟨S1, .f32⟩
  | .local _ .vmem, ⟨7, _⟩ => ⟨S768, .f32⟩
  | .local _ .vmem, ⟨8, _⟩ => ⟨S768, .f32⟩
  | .local _ .vmem, ⟨9, _⟩ => ⟨S16x1x768, .f32⟩
  | .local _ .vmem, ⟨10, _⟩ => ⟨S16x1x768, .f32⟩
  | _, _ => ⟨S1024x100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x100x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S16x100x768_S16x100x768_0_0_0 : ∀ a, (![0, 0, 0] : Fin 3 → Nat) a + S16x100x768.size a ≤ S16x100x768.size a
  h_S16x100x768 : 0 < S16x100x768.numel
  reduces_S16x100x768_S16x100 : S16x100x768.Reduces [2] S16x100
  shapeCasts_S16x100_S16x100x1 : S16x100.ShapeCasts S16x100x1
  broadcasts_S16x100x1_S16x100x768 : S16x100x1.Broadcasts S16x100x768
  inb_S768_S768_0 : ∀ a, (![0] : Fin 1 → Nat) a + S768.size a ≤ S768.size a
  h_S768 : 0 < S768.numel
  shapeCasts_S768_S1x1x768 : S768.ShapeCasts S1x1x768
  broadcasts_S1x1x768_S16x100x768 : S1x1x768.Broadcasts S16x100x768
  transposes_S16x100x1_p0_2_1_S16x1x100 : S16x100x1.Transposes [0, 2, 1] S16x1x100
  broadcasts_S16x100x1_S16x100x100 : S16x100x1.Broadcasts S16x100x100
  broadcasts_S16x1x100_S16x100x100 : S16x1x100.Broadcasts S16x100x100
  reduces_S16x100x100_S16x100 : S16x100x100.Reduces [2] S16x100
  reduces_S16x100_S16 : S16x100.Reduces [1] S16
  shapeCasts_S16_S16x1 : S16.ShapeCasts S16x1
  broadcasts_S16x1_S16x100 : S16x1.Broadcasts S16x100
  inb_S1x100_S1x100_0_0 : ∀ a, (![0, 0] : Fin 2 → Nat) a + S1x100.size a ≤ S1x100.size a
  h_S1x100 : 0 < S1x100.numel
  broadcasts_S1x100_S16x100 : S1x100.Broadcasts S16x100
  inb_S1_S1_0 : ∀ a, (![0] : Fin 1 → Nat) a + S1.size a ≤ S1.size a
  h_S1 : 0 < S1.numel
  inpos_S1_p0 : ∀ a, (![0] : Fin 1 → Nat) a < S1.size a
  inb_S16x1x768_S16x1x768_0_0_0 : ∀ a, (![0, 0, 0] : Fin 3 → Nat) a + S16x1x768.size a ≤ S16x1x768.size a
  h_S16x1x768 : 0 < S16x1x768.numel
  broadcasts_S16x1x768_S16x100x768 : S16x1x768.Broadcasts S16x100x768
  reduces_S16x100x768_S16x768 : S16x100x768.Reduces [1] S16x768
  shapeCasts_S16x768_S16x1x768 : S16x768.ShapeCasts S16x1x768
  dot_S16x100x768_S16x100x768_S16x100x100_2_2_1_1_0_0_wf : DotDims.WF S16x100x768 S16x100x768 S16x100x100 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x100x768.size a ≤ S1024x100x768.size a
  hwx0_0 : ∀ i : grid0.Coords, EltTy.bits .f32 = 32 ∨ (Rect.block (s := S1024x100x768) S16x100x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x768.size a ≤ S1024x1x768.size a
  hwx0_1 : ∀ i : grid0.Coords, EltTy.bits .f32 = 32 ∨ (Rect.block (s := S1024x1x768) S16x1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1x768.size a ≤ S1024x1x768.size a
  hwx0_7 : ∀ i : grid0.Coords, EltTy.bits .f32 = 32 ∨ (Rect.block (s := S1024x1x768) S16x1x768.size (cc0_transform_7 i) (hinb0_7 i)).WholeWords (EltTy.packing .f32)

variable [Facts₀]

def dot_S16x100x768_S16x100x768_S16x100x100_2_2_1_1_0_0 : DotDims S16x100x768 S16x100x768 S16x100x100 where
  lhsContracting := [2]
  rhsContracting := [2]
  lhsNonContracting := [1]
  rhsNonContracting := [1]
  lhsBatch := [0]
  rhsBatch := [0]
  wf := dot_S16x100x768_S16x100x768_S16x100x100_2_2_1_1_0_0_wf

abbrev win0_0 : Pipeline.Window sig grid0 :=
  Pipeline.Window.ofSpec (Memref.whole main_arg0) S16x100x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S16x1x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x100x768 : Shape := ⟨3, ![1024, 100, 768]⟩
abbrev S1024x1x768 : Shape := ⟨3, ![1024, 1, 768]⟩
abbrev S1 : Shape := ⟨1, ![1]⟩
abbrev S768 : Shape := ⟨1, ![768]⟩
abbrev S1x100 : Shape := ⟨2, ![1, 100]⟩
abbrev S_ : Shape := ⟨0, ![]⟩
abbrev S1024x100 : Shape := ⟨2, ![1024, 100]⟩
abbrev S1024x100x1 : Shape := ⟨3, ![1024, 100, 1]⟩
abbrev S1x1x768 : Shape := ⟨3, ![1, 1, 768]⟩
abbrev S1024x100x100 : Shape := ⟨3, ![1024, 100, 100]⟩
abbrev S1024x1x100 : Shape := ⟨3, ![1024, 1, 100]⟩
abbrev S1024 : Shape := ⟨1, ![1024]⟩
abbrev S1024x1 : Shape := ⟨2, ![1024, 1]⟩
abbrev S100x1 : Shape := ⟨2, ![100, 1]⟩
abbrev S1x1 : Shape := ⟨2, ![1, 1]⟩
abbrev S1024x768 : Shape := ⟨2, ![1024, 768]⟩

abbrev nBuf : Space → Nat
  | .hbm => 107
  | .vmem => 0
  | .smem => 0
  | _ => 0

abbrev bufTy : (tb : Table) → Fin (tcTables nBuf tb) → BufTy
  | .hbm, ⟨0, _⟩ => ⟨S1024x100x768, .f32⟩
  | .hbm, ⟨1, _⟩ => ⟨S1024x1x768, .f32⟩
  | .hbm, ⟨2, _⟩ => ⟨S1, .f32⟩
  | .hbm, ⟨3, _⟩ => ⟨S768, .f32⟩
  | .hbm, ⟨4, _⟩ => ⟨S768, .f32⟩
  | .hbm, ⟨5, _⟩ => ⟨S1x100, .f32⟩
  | .hbm, ⟨6, _⟩ => ⟨S1, .f32⟩
  | .hbm, ⟨7, _⟩ => ⟨S_, .f32⟩
  | .hbm, ⟨8, _⟩ => ⟨S1024x100, .f32⟩
  | .hbm, ⟨9, _⟩ => ⟨S1024x100x1, .f32⟩
  | .hbm, ⟨10, _⟩ => ⟨S_, .f32⟩
  | .hbm, ⟨11, _⟩ => ⟨S1024x100x1, .f32⟩
  | .hbm, ⟨12, _⟩ => ⟨S1024x100x1, .f32⟩
  | .hbm, ⟨13, _⟩ => ⟨S1024x100x768, .f32⟩
  | .hbm, ⟨14, _⟩ => ⟨S1024x100x768, .f32⟩
  | .hbm, ⟨15, _⟩ => ⟨S1024x100x768, .f32⟩
  | .hbm, ⟨16, _⟩ => ⟨S_, .f32⟩
  | .hbm, ⟨17, _⟩ => ⟨S1024x100, .f32⟩
  | .hbm, ⟨18, _⟩ => ⟨S1024x100x1, .f32⟩
  | .hbm, ⟨19, _⟩ => ⟨S_, .f32⟩
  | .hbm, ⟨20, _⟩ => ⟨S1024x100x1, .f32⟩
  | .hbm, ⟨21, _⟩ => ⟨S1024x100x1, .f32⟩
  | .hbm, ⟨22, _⟩ => ⟨S1024x100x768, .f32⟩
  | .hbm, ⟨23, _⟩ => ⟨S1024x100x768, .f32⟩
  | .hbm, ⟨24, _⟩ => ⟨S_, .f32⟩
  | .hbm, ⟨25, _⟩ => ⟨S1024x100x1, .f32⟩
  | .hbm, ⟨26, _⟩ => ⟨S1024x100x1, .f32⟩
  | .hbm, ⟨27, _⟩ => ⟨S1024x100x1, .f32⟩
  | .hbm, ⟨28, _⟩ => ⟨S1024x100x768, .f32⟩
  | .hbm, ⟨29, _⟩ => ⟨S1024x100x768, .f32⟩
  | .hbm, ⟨30, _⟩ => ⟨S1x1x768, .f32⟩
  | .hbm, ⟨31, _⟩ => ⟨S1024x100x768, .f32⟩
  | .hbm, ⟨32, _⟩ => ⟨S1024x100x768, .f32⟩
  | .hbm, ⟨33, _⟩ => ⟨S1x1x768, .f32⟩
  | .hbm, ⟨34, _⟩ => ⟨S1024x100x768, .f32⟩
  | .hbm, ⟨35, _⟩ => ⟨S1024x100x768, .f32⟩
  | .hbm, ⟨36, _⟩ => ⟨S1024x100x100, .f32⟩
  | .hbm, ⟨37, _⟩ => ⟨S1024x100x768, .f32⟩
  | .hbm, ⟨38, _⟩ => ⟨S_, .f32⟩
  | .hbm, ⟨39, _⟩ => ⟨S1024x100, .f32⟩
  | .hbm, ⟨40, _⟩ => ⟨S1024x100x1, .f32⟩
  | .hbm, ⟨41, _⟩ => ⟨S1024x100x1, .f32⟩
  | .hbm, ⟨42, _⟩ => ⟨S1024x1x100, .f32⟩
  | .hbm, ⟨43, _⟩ => ⟨S1024x100x100, .f32⟩
  | .hbm, ⟨44, _⟩ => ⟨S1024x100x100, .f32⟩
  | .hbm, ⟨45, _⟩ => ⟨S1024x100x100, .f32⟩
  | .hbm, ⟨46, _⟩ => ⟨S_, .f32⟩
  | .hbm, ⟨47, _⟩ => ⟨S1024x100x100, .f32⟩
  | .hbm, ⟨48, _⟩ => ⟨S1024x100x100, .f32⟩
  | .hbm, ⟨49, _⟩ => ⟨S1024x100x100, .f32⟩
  | .hbm, ⟨50, _⟩ => ⟨S_, .f32⟩
  | .hbm, ⟨51, _⟩ => ⟨S1024x100, .f32⟩
  | .hbm, ⟨52, _⟩ => ⟨S_, .f32⟩
  | .hbm, ⟨53, _⟩ => ⟨S1024, .f32⟩
  | .hbm, ⟨54, _⟩ => ⟨S1024x1, .f32⟩
  | .hbm, ⟨55, _⟩ => ⟨S_, .f32⟩
  | .hbm, ⟨56, _⟩ => ⟨S1024, .f32⟩
  | .hbm, ⟨57, _⟩ => ⟨S1024x1, .f32⟩
  | .hbm, ⟨58, _⟩ => ⟨S1024x100, .f32⟩
  | .hbm, ⟨59, _⟩ => ⟨S1024x100, .f32⟩
  | .hbm, ⟨60, _⟩ => ⟨S1024x1, .f32⟩
  | .hbm, ⟨61, _⟩ => ⟨S_, .f32⟩
  | .hbm, ⟨62, _⟩ => ⟨S1024x1, .f32⟩
  | .hbm, ⟨63, _⟩ => ⟨S1024x1, .f32⟩
  | .hbm, ⟨64, _⟩ => ⟨S1024x100, .f32⟩
  | .hbm, ⟨65, _⟩ => ⟨S1024x100, .f32⟩
  | .hbm, ⟨66, _⟩ => ⟨S100x1, .f32⟩
  | .hbm, ⟨67, _⟩ => ⟨S1024x1, .f32⟩
  | .hbm, ⟨68, _⟩ => ⟨S1x1, .f32⟩
  | .hbm, ⟨69, _⟩ => ⟨S1024x1, .f32⟩
  | .hbm, ⟨70, _⟩ => ⟨S1024x1, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1x1, .f32⟩
  | .hbm, ⟨80, _⟩ => ⟨S1024x1, .f32⟩
  | .hbm, ⟨81, _⟩ => ⟨S1024x1, .f32⟩
  | .hbm, ⟨82, _⟩ => ⟨S1024x100, .f32⟩
  | .hbm, ⟨83, _⟩ => ⟨S1024x100, .f32⟩
  | .hbm, ⟨84, _⟩ => ⟨S_, .f32⟩
  | .hbm, ⟨85, _⟩ => ⟨S1024x100, .f32⟩
  | .hbm, ⟨86, _⟩ => ⟨S1024x100, .f32⟩
  | .hbm, ⟨87, _⟩ => ⟨S_, .f32⟩
  | .hbm, ⟨88, _⟩ => ⟨S1024, .f32⟩
  | .hbm, ⟨89, _⟩ => ⟨S1024x1, .f32⟩
  | .hbm, ⟨90, _⟩ => ⟨S_, .f32⟩
  | .hbm, ⟨91, _⟩ => ⟨S1024x1, .f32⟩
  | .hbm, ⟨92, _⟩ => ⟨S1024x1, .f32⟩
  | .hbm, ⟨93, _⟩ => ⟨S1024x100, .f32⟩
  | .hbm, ⟨94, _⟩ => ⟨S1024x100, .f32⟩
  | .hbm, ⟨95, _⟩ => ⟨S1024x100x768, .f32⟩
  | .hbm, ⟨96, _⟩ => ⟨S1024x100x768, .f32⟩
  | .hbm, ⟨97, _⟩ => ⟨S1024x100x1, .f32⟩
  | .hbm, ⟨98, _⟩ => ⟨S1024x100x768, .f32⟩
  | .hbm, ⟨99, _⟩ => ⟨S1024x100x768, .f32⟩
  | .hbm, ⟨100, _⟩ => ⟨S_, .f32⟩
  | .hbm, ⟨101, _⟩ => ⟨S1024x768, .f32⟩
  | .hbm, ⟨102, _⟩ => ⟨S1024x1x768, .f32⟩
  | .hbm, ⟨103, _⟩ => ⟨S_, .f32⟩
  | .hbm, ⟨104, _⟩ => ⟨S1024x1x768, .f32⟩
  | .hbm, ⟨105, _⟩ => ⟨S1024x1x768, .f32⟩
  | .hbm, ⟨106, _⟩ => ⟨S1024x1x768, .f32⟩
  | _, _ => ⟨S1024x100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  reducesTo_S1024x100x768_S1024x100_d2 : S1024x100x768.ReducesTo [2] S1024x100
  h_S_ : 0 < S_.numel
  bcast_S1024x100_S1024x100x1_0_1 : S1024x100.BroadcastsInDim S1024x100x1 (![0, 1] : Fin 2 → Fin S1024x100x1.rank)
  bcast_S_S1024x100x1 : S_.BroadcastsInDim S1024x100x1 (![] : Fin 0 → Fin S1024x100x1.rank)
  bcast_S1024x100x1_S1024x100x768_0_1_2 : S1024x100x1.BroadcastsInDim S1024x100x768 (![0, 1, 2] : Fin 3 → Fin S1024x100x768.rank)
  bcast_S768_S1x1x768_2 : S768.BroadcastsInDim S1x1x768 (![2] : Fin 1 → Fin S1x1x768.rank)
  bcast_S1x1x768_S1024x100x768_0_1_2 : S1x1x768.BroadcastsInDim S1024x100x768 (![0, 1, 2] : Fin 3 → Fin S1024x100x768.rank)
  transposes_S1024x100x1_S1024x1x100_0_2_1 : S1024x100x1.Transposes [0, 2, 1] S1024x1x100
  bcast_S1024x100x1_S1024x100x100_0_1_2 : S1024x100x1.BroadcastsInDim S1024x100x100 (![0, 1, 2] : Fin 3 → Fin S1024x100x100.rank)
  bcast_S1024x1x100_S1024x100x100_0_1_2 : S1024x1x100.BroadcastsInDim S1024x100x100 (![0, 1, 2] : Fin 3 → Fin S1024x100x100.rank)
  bcast_S_S1024x100x100 : S_.BroadcastsInDim S1024x100x100 (![] : Fin 0 → Fin S1024x100x100.rank)
  reducesTo_S1024x100x100_S1024x100_d2 : S1024x100x100.ReducesTo [2] S1024x100
  reducesTo_S1024x100_S1024_d1 : S1024x100.ReducesTo [1] S1024
  bcast_S1024_S1024x1_0 : S1024.BroadcastsInDim S1024x1 (![0] : Fin 1 → Fin S1024x1.rank)
  bcast_S1024x1_S1024x100_0_1 : S1024x1.BroadcastsInDim S1024x100 (![0, 1] : Fin 2 → Fin S1024x100.rank)
  bcast_S_S1024x1 : S_.BroadcastsInDim S1024x1 (![] : Fin 0 → Fin S1024x1.rank)
  transposes_S1x100_S100x1_1_0 : S1x100.Transposes [1, 0] S100x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x100 : S_.BroadcastsInDim S1024x100 (![] : Fin 0 → Fin S1024x100.rank)
  bcast_S1024x1x768_S1024x100x768_0_1_2 : S1024x1x768.BroadcastsInDim S1024x100x768 (![0, 1, 2] : Fin 3 → Fin S1024x100x768.rank)
  reducesTo_S1024x100x768_S1024x768_d1 : S1024x100x768.ReducesTo [1] S1024x768
  bcast_S1024x768_S1024x1x768_0_2 : S1024x768.BroadcastsInDim S1024x1x768 (![0, 2] : Fin 2 → Fin S1024x1x768.rank)
  bcast_S_S1024x1x768 : S_.BroadcastsInDim S1024x1x768 (![] : Fin 0 → Fin S1024x1x768.rank)
  dot_S1024x100x768_S1024x100x768_S1024x100x100_2_2_1_1_0_0_wf : DotDims.WF S1024x100x768 S1024x100x768 S1024x100x100 [2] [2] [1] [1] [0] [0]
  dot_S1024x100_S100x1_S1024x1_1_0_0_1_n_n_wf : DotDims.WF S1024x100 S100x1 S1024x1 [1] [0] [0] [1] [] []

variable [Facts₀]

def dot_S1024x100x768_S1024x100x768_S1024x100x100_2_2_1_1_0_0 : DotDims S1024x100x768 S1024x100x768 S1024x100x100 where
  lhsContracting := [2]
  rhsContracting := [2]
  lhsNonContracting := [1]
  rhsNonContracting := [1]
  lhsBatch := [0]
  rhsBatch := [0]
  wf := dot_S1024x100x768_S1024x100x768_S1024x100x100_2_2_1_1_0_0_wf
def dot_S1024x100_S100x1_S1024x1_1_0_0_1_n_n : DotDims S1024x100 S100x1 S1024x1 where
  lhsContracting := [1]
  rhsContracting := [0]
  lhsNonContracting := [0]
  rhsNonContracting := [1]
  lhsBatch := []
  rhsBatch := []
  wf := dot_S1024x100_S100x1_S1024x1_1_0_0_1_n_n_wf

class Facts : Prop extends Facts₀ where

variable [Facts]
-- ==== Proof.Spec.lean ====
/-
  One batch element of the computation, written on the extended reals with plain finite sums and folds.

  A batch element is a matrix X of 100 rows and 768 columns, a centre c of 768 entries, and the shared parameters:
  a scale γ and a shift β per column, a weight w per row, a bias tb and a gain α.

  * Each row is normalised: its mean is removed, it is multiplied by the reciprocal square root of its variance plus a
    small constant, scaled by γ and shifted by β.  Call the result Y.
  * Every pair of rows (n, m) gets its cosine, the inner product of the rows over the product of their lengths plus a
    small constant; the density of row n is the sum of its cosines.
  * The densities are mapped affinely by their minimum and maximum, a threshold is the logistic function of their
    w-weighted sum plus tb, times α, and each row's gate is the positive part of its density minus the threshold,
    divided by the sum of the gates plus a small constant.
  * The result at column d is c d plus one hundredth of the gate-weighted sum of the differences Y n d − c d.

  The one algebraic fact used later: a · rsqrt v and a / sqrt v are the same extended real whenever v is positive
  (both are 0 at v = +∞), and the variance plus the constant is positive because a sum of squares is not negative.
-/
import Idealize.ShloMosaic.PureOps.Ideal
import Idealize.ShloMosaic.PureOps.Ideal.Laws

noncomputable section

open scoped BigOperators

namespace Cert.Spec

open Idealize.ShloMosaic

/-- The number of columns, 768, as the float it is written as. -/
def c768 : EReal := Ideal.ofBits .f32 0x44400000#32
/-- The number of rows, 100, as the float it is written as. -/
def c100 : EReal := Ideal.ofBits .f32 0x42C80000#32
/-- The constant added to the variance. -/
def epsVar : EReal := Ideal.ofBits .f32 0x3727C5AC#32
/-- The constant added to every divisor after the normalisation. -/
def epsDiv : EReal := Ideal.ofBits .f32 0x322BCC77#32
/-- The float zero, as it is written. -/
def zero : EReal := Ideal.ofBits .f32 0x00000000#32
/-- The value a maximum starts from. -/
def maxInit : EReal := Ideal.ofBits .f32 0xFF800000#32
/-- The value a minimum starts from. -/
def minInit : EReal := Ideal.ofBits .f32 0x7F800000#32

/-! ## The normalised rows -/

/-- The mean of row n. -/
def mean (X : Fin 100 → Fin 768 → EReal) (n : Fin 100) : EReal := Ideal.div (∑ d : Fin 768, X n d) c768

/-- Row n with its mean removed. -/
def cen (X : Fin 100 → Fin 768 → EReal) (n : Fin 100) (d : Fin 768) : EReal := X n d - mean X n

/-- The variance of row n plus the constant. -/
def varEps (X : Fin 100 → Fin 768 → EReal) (n : Fin 100) : EReal :=
  Ideal.div (∑ d : Fin 768, cen X n d * cen X n d) c768 + epsVar

/-- The normalised rows, by the reciprocal square root. -/
def rows (X : Fin 100 → Fin 768 → EReal) (γ β : Fin 768 → EReal) (n : Fin 100) (d : Fin 768) : EReal :=
  cen X n d * Ideal.rsqrt (varEps X n) * γ d + β d

/-- The normalised rows, by a division by the square root. -/
def rowsDiv (X : Fin 100 → Fin 768 → EReal) (γ β : Fin 768 → EReal) (n : Fin 100) (d : Fin 768) : EReal :=
  Ideal.div (cen X n d) (Ideal.sqrt (varEps X n)) * γ d + β d

/-! ## From the normalised rows to the result -/

/-- The density of row n: the sum over m of the cosine of rows n and m. -/
def dens (Y : Fin 100 → Fin 768 → EReal) (n : Fin 100) : EReal :=
  ∑ m : Fin 100, Ideal.div (∑ d : Fin 768, Y n d * Y m d)
    (Ideal.sqrt (∑ d : Fin 768, Y n d * Y n d) * Ideal.sqrt (∑ d : Fin 768, Y m d * Y m d) + epsDiv)

/-- The largest density. -/
def densMax (D : Fin 100 → EReal) : EReal := (Finset.univ : Finset (Fin 100)).fold max maxInit D
/-- The smallest density. -/
def densMin (D : Fin 100 → EReal) : EReal := (Finset.univ : Finset (Fin 100)).fold min minInit D

/-- A density mapped affinely by a minimum mn and a maximum mx. -/
def scaled (D : Fin 100 → EReal) (mx mn : EReal) (n : Fin 100) : EReal := Ideal.div (D n - mn) (mx - mn + epsDiv)

/-- The threshold of scaled densities E. -/
def thr (E w : Fin 100 → EReal) (tb α : EReal) : EReal := Ideal.logistic ((∑ n : Fin 100, E n * w n) + tb) * α

/-- The gate of row n: the positive part of its scaled density minus the threshold. -/
def gate (E w : Fin 100 → EReal) (tb α : EReal) (n : Fin 100) : EReal := max (E n - thr E w tb α) zero

/-- The weight of row n: its gate over the sum of the gates plus the constant. -/
def weight (E w : Fin 100 → EReal) (tb α : EReal) (n : Fin 100) : EReal :=
  Ideal.div (gate E w tb α n) ((∑ k : Fin 100, gate E w tb α k) + epsDiv)

/-- The result at column d from rows Y, row weights W and the centre c. -/
def shifted (Y : Fin 100 → Fin 768 → EReal) (W : Fin 100 → EReal) (c : Fin 768 → EReal) (d : Fin 768) : EReal :=
  c d + Ideal.div (∑ n : Fin 100, (Y n d - c d) * W n) c100

/-- The result at column d from the normalised rows. -/
def fromRows (Y : Fin 100 → Fin 768 → EReal) (c : Fin 768 → EReal) (w : Fin 100 → EReal) (tb α : EReal) (d : Fin 768) : EReal :=
  shifted Y (weight (scaled (dens Y) (densMax (dens Y)) (densMin (dens Y))) w tb α) c d

/-- One batch element's result at column d. -/
def result (X : Fin 100 → Fin 768 → EReal) (c γ β : Fin 768 → EReal) (w : Fin 100 → EReal) (tb α : EReal) (d : Fin 768) : EReal :=
  fromRows (rows X γ β) c w tb α d

/-! ## The law between the two normalisations -/

/-- The float 768.0 denotes the real 768. -/
theorem c768_eq : c768 = ((768 : ℝ) : EReal) := by
  unfold c768
  simp [Ideal.ofBits, Ideal.ieee, -EReal.coe_mul] <;> norm_num

/-- The float 1.0 denotes the number 1. -/
theorem one_eq : Ideal.ofBits .f32 0x3F800000#32 = 1 := by
  simp [Ideal.ofBits, Ideal.ieee, -EReal.coe_mul] <;> norm_num

/-- A sum that starts from the float zero is the sum. -/
theorem zero_add_lit (x : EReal) : Ideal.ofBits .f32 0x00000000#32 + x = x := by
  rw [Ideal.ofBits_zero_f32, zero_add]

/-- The constant added to the variance is positive. -/
theorem epsVar_pos : 0 < epsVar := by
  unfold epsVar
  simp [Ideal.ofBits, Ideal.ieee, -EReal.coe_mul]

/-- A square is not negative on the extended reals (the two infinities square to +∞). -/
theorem mul_self_nonneg (a : EReal) : 0 ≤ a * a :=
  EReal.mul_nonneg_iff.mpr ((le_total 0 a).elim (fun h => .inl ⟨h, h⟩) (fun h => .inr ⟨h, h⟩))

/-- The variance plus the constant is positive, whatever the row holds. -/
theorem varEps_pos (X : Fin 100 → Fin 768 → EReal) (n : Fin 100) : 0 < varEps X n := by
  unfold varEps
  refine Right.add_pos_of_nonneg_of_pos ?_ epsVar_pos
  rw [c768_eq, Ideal.div_coe (by norm_num)]
  exact EReal.mul_nonneg (Finset.sum_nonneg fun d _ => mul_self_nonneg _) (EReal.coe_nonneg.mpr (by norm_num))

/-- For a positive v the product with the reciprocal square root is the quotient by the square root: at v = +∞ both
    are 0, at a positive real both are the product with the inverse of the square root. -/
theorem mul_rsqrt_eq_div_sqrt (a v : EReal) (hv : 0 < v) : a * Ideal.rsqrt v = Ideal.div a (Ideal.sqrt v) := by
  induction v using EReal.rec with
  | bot => exact absurd hv (not_lt_bot)
  | top =>
    rw [Ideal.rsqrt_top, Ideal.sqrt_top, Ideal.div, if_neg EReal.top_ne_zero, EReal.inv_top]
  | coe r =>
    have hr : 0 < r := EReal.coe_pos.mp hv
    have hs : (Real.sqrt r : EReal) ≠ 0 := by exact_mod_cast (Real.sqrt_pos.mpr hr).ne'
    rw [Ideal.rsqrt_coe, if_neg (not_lt.mpr hr.le), if_neg hr.ne', Ideal.sqrt_coe, if_neg (not_lt.mpr hr.le), Ideal.div,
      if_neg hs, EReal.coe_inv]

/-- So the two normalisations give the same rows. -/
theorem rowsDiv_eq_rows (X : Fin 100 → Fin 768 → EReal) (γ β : Fin 768 → EReal) : rowsDiv X γ β = rows X γ β := by
  funext n d
  unfold rowsDiv rows
  rw [mul_rsqrt_eq_div_sqrt _ _ (varEps_pos X n)]

end Cert.Spec

end
-- ==== Proof.Whole.lean ====
import proofs.«122440_j46273977647540_1_alg».proof.Proof.Spec
import Idealize.ShloMosaic.Lib.ValueIdx

/-
  The whole result, as one function of the seven argument arrays.

  The result array has one row of 768 entries per batch element.  Its entry (B, 0, d) is the specification's result at
  column d for the batch element whose matrix is the slab B of the first argument and whose centre is row B of the
  second; the scale, shift, weights, bias and gain are the remaining arguments, shared by all batch elements.
-/

noncomputable section

namespace Cert.Whole

open Idealize.ShloMosaic Idealize.ShloMosaic.ValueIdx

/-- The result for batch element B at column d. -/
def elem (a0 : (⟨3, ![1024, 100, 768]⟩ : Shape).Idx → EReal) (a1 : (⟨3, ![1024, 1, 768]⟩ : Shape).Idx → EReal)
    (a2 : (⟨1, ![1]⟩ : Shape).Idx → EReal) (a3 a4 : (⟨1, ![768]⟩ : Shape).Idx → EReal)
    (a5 : (⟨2, ![1, 100]⟩ : Shape).Idx → EReal) (a6 : (⟨1, ![1]⟩ : Shape).Idx → EReal) (B : Fin 1024) (d : Fin 768) : EReal :=
  Cert.Spec.result (fun n d => a0 (ix3 B n d)) (fun d => a1 (ix3 B (0 : Fin 1) d)) (fun d => a3 (ix1 d)) (fun d => a4 (ix1 d))
    (fun n => a5 (ix2 (0 : Fin 1) n)) (a6 (ix1 (0 : Fin 1))) (a2 (ix1 (0 : Fin 1))) d

/-- The whole result array. -/
def G (a0 : (⟨3, ![1024, 100, 768]⟩ : Shape).Idx → EReal) (a1 : (⟨3, ![1024, 1, 768]⟩ : Shape).Idx → EReal)
    (a2 : (⟨1, ![1]⟩ : Shape).Idx → EReal) (a3 a4 : (⟨1, ![768]⟩ : Shape).Idx → EReal)
    (a5 : (⟨2, ![1, 100]⟩ : Shape).Idx → EReal) (a6 : (⟨1, ![1]⟩ : Shape).Idx → EReal) :
    (⟨3, ![1024, 1, 768]⟩ : Shape).Idx → EReal :=
  fun i => elem a0 a1 a2 a3 a4 a5 a6 (⟨(i 0).val, (i 0).isLt⟩ : Fin 1024) (⟨(i 2).val, (i 2).isLt⟩ : Fin 768)

/-- The whole result at an index whose first coordinate is B and whose last is d. -/
theorem G_apply (a0 : (⟨3, ![1024, 100, 768]⟩ : Shape).Idx → EReal) (a1 : (⟨3, ![1024, 1, 768]⟩ : Shape).Idx → EReal)
    (a2 : (⟨1, ![1]⟩ : Shape).Idx → EReal) (a3 a4 : (⟨1, ![768]⟩ : Shape).Idx → EReal)
    (a5 : (⟨2, ![1, 100]⟩ : Shape).Idx → EReal) (a6 : (⟨1, ![1]⟩ : Shape).Idx → EReal)
    (i : (⟨3, ![1024, 1, 768]⟩ : Shape).Idx) (B : Fin 1024) (d : Fin 768) (hB : (i 0).val = B.val) (hd : (i 2).val = d.val) :
    G a0 a1 a2 a3 a4 a5 a6 i = elem a0 a1 a2 a3 a4 a5 a6 B d := by
  have e0 : (⟨(i 0).val, (i 0).isLt⟩ : Fin 1024) = B := Fin.ext hB
  have e2 : (⟨(i 2).val, (i 2).isLt⟩ : Fin 768) = d := Fin.ext hd
  show elem a0 a1 a2 a3 a4 a5 a6 (⟨(i 0).val, (i 0).isLt⟩ : Fin 1024) (⟨(i 2).val, (i 2).isLt⟩ : Fin 768) = _
  rw [e0, e2]

end Cert.Whole

end
-- ==== Proof.LibBatchOps.lean ====
/-
  Rank-3 arrays [n0, n1, n2] of extended reals read at an index (b, q, l): reductions over ONE of the two inner
  axes, and a reduced array kept as a unit axis and broadcast back.

  * A maximum taken from −∞ over the middle axis is, at (b, l), the fold of `max` from −∞ over the entries (b, q, l).
  * A sum over the middle axis is, at (b, l), the sum over `q` of the entries (b, q, l); a sum over the last axis is,
    at (b, q), the sum over `l`.
  * An array [n0, n2] viewed as [n0, 1, n2] and broadcast to [n0, n1, n2] reads, at (b, q, l), the entry (b, l);
    an array [n0, n1] viewed as [n0, n1, 1] and broadcast to [n0, n1, n2] reads, at (b, q, l), the entry (b, q).
-/
import Idealize.ShloMosaic.Lib.ValueIdx
import Idealize.ShloMosaic.Lib.Pipeline.Value
import Idealize.ShloMosaic.PureOps.Ideal.Laws

noncomputable section

namespace Cert.BatchOps

open Idealize.ShloMosaic Idealize.ShloMosaic.ValueIdx

/-- The maximum over the middle axis, from −∞: at (b, l) the fold of `max` over the entries (b, q, l). -/
theorem max_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0xFF800000#32 : BitVec 32) = 0xFF800000#32) (b : Fin n0) (l : Fin n2) :
    multiReduction .maximumf [1] ⟨2, ![n0, n2]⟩ src 0xFF800000#32 h hφ hacc (ix2 b l)
      = (Finset.univ : Finset (Fin n1)).fold max (Ideal.ofBits .f32 0xFF800000#32) (fun q => src (ix3 b q l)) :=
  (Ideal.multiReduction_maximumf_single src 0xFF800000#32 h hφ hacc (ix2 b l)).trans
    (Finset.fold_congr fun q _ => congrArg src (funext fun ax => Fin.ext (by
      match ax with
      | ⟨0, _⟩ => rfl
      | ⟨1, _⟩ => rfl
      | ⟨2, _⟩ => rfl)))

/-- The sum over the middle axis: at (b, l) the sum over `q` of the entries (b, q, l). -/
theorem sum_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (l : Fin n2) :
    multiReduction .add [1] ⟨2, ![n0, n2]⟩ src 0x00000000#32 h hφ hacc (ix2 b l)
      = ∑ q : Fin n1, src (ix3 b q l) :=
  (Ideal.multiReduction_add_single src 0x00000000#32 h hφ hacc (ix2 b l)).trans
    (Finset.sum_congr rfl fun q _ => congrArg src (funext fun ax => Fin.ext (by
      match ax with
      | ⟨0, _⟩ => rfl
      | ⟨1, _⟩ => rfl
      | ⟨2, _⟩ => rfl)))

/-- The sum over the last axis: at (b, q) the sum over `l` of the entries (b, q, l). -/
theorem sum_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (q : Fin n1) :
    multiReduction .add [2] ⟨2, ![n0, n1]⟩ src 0x00000000#32 h hφ hacc (ix2 b q)
      = ∑ l : Fin n2, src (ix3 b q l) :=
  (Ideal.multiReduction_add_single src 0x00000000#32 h hφ hacc (ix2 b q)).trans
    (Finset.sum_congr rfl fun l _ => congrArg src (funext fun ax => Fin.ext (by
      match ax with
      | ⟨0, _⟩ => rfl
      | ⟨1, _⟩ => rfl
      | ⟨2, _⟩ => rfl)))

variable {α : Type}

/-- [n0, n2] kept as [n0, 1, n2] and broadcast along the middle axis: at (b, q, l) the entry (b, l). -/
theorem keep_axis1_apply {n0 n1 n2 : ℕ} (v : (⟨2, ![n0, n2]⟩ : Shape).Idx → α)
    (h1 : (⟨2, ![n0, n2]⟩ : Shape).ShapeCasts ⟨3, ![n0, 1, n2]⟩)
    (h2 : (⟨3, ![n0, 1, n2]⟩ : Shape).Broadcasts ⟨3, ![n0, n1, n2]⟩) (b : Fin n0) (q : Fin n1) (l : Fin n2) :
    broadcastTo ⟨3, ![n0, n1, n2]⟩ (shapeCast ⟨3, ![n0, 1, n2]⟩ v h1) h2 (ix3 b q l) = v (ix2 b l) := by
  refine (broadcastTo_apply _ h2 (ix3 b q l) (ix3 b (0 : Fin 1) l) fun ax => ?_).trans ?_
  · match ax with
    | ⟨0, _⟩ =>
      show b.val = if n0 = 1 then 0 else b.val
      split
      · have := b.isLt; omega
      · rfl
    | ⟨1, _⟩ => rfl
    | ⟨2, _⟩ =>
      show l.val = if n2 = 1 then 0 else l.val
      split
      · have := l.isLt; omega
      · rfl
  · refine shapeCast_apply v h1 (ix3 b (0 : Fin 1) l) (ix2 b l) ?_
    rw [Shape.rowMajor_val_two, Shape.rowMajor_val_three]
    show b.val * n2 + l.val = (b.val * 1 + 0) * n2 + l.val
    rw [Nat.mul_one, Nat.add_zero]

/-- [n0, n1] kept as [n0, n1, 1] and broadcast along the last axis: at (b, q, l) the entry (b, q). -/
theorem keep_axis2_apply {n0 n1 n2 : ℕ} (v : (⟨2, ![n0, n1]⟩ : Shape).Idx → α)
    (h1 : (⟨2, ![n0, n1]⟩ : Shape).ShapeCasts ⟨3, ![n0, n1, 1]⟩)
    (h2 : (⟨3, ![n0, n1, 1]⟩ : Shape).Broadcasts ⟨3, ![n0, n1, n2]⟩) (b : Fin n0) (q : Fin n1) (l : Fin n2) :
    broadcastTo ⟨3, ![n0, n1, n2]⟩ (shapeCast ⟨3, ![n0, n1, 1]⟩ v h1) h2 (ix3 b q l) = v (ix2 b q) := by
  refine (broadcastTo_apply _ h2 (ix3 b q l) (ix3 b q (0 : Fin 1)) fun ax => ?_).trans ?_
  · match ax with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => rfl
  · refine shapeCast_apply v h1 (ix3 b q (0 : Fin 1)) (ix2 b q) ?_
    rw [Shape.rowMajor_val_two, Shape.rowMajor_val_three]
    show b.val * n1 + q.val = (b.val * n1 + q.val) * 1 + 0
    omega

end Cert.BatchOps

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.KernelRows.lean ====
import proofs.«122440_j46273977647540_1_alg».proof.Proof.Gen.KernelIdeal.Skeleton
import proofs.«122440_j46273977647540_1_alg».proof.Proof.Spec
import proofs.«122440_j46273977647540_1_alg».proof.Proof.LibBatchOps
import proofs.«122440_j46273977647540_1_alg».proof.Proof.LibUnitAxes
import Idealize.ShloMosaic.Lib.ValueIdx
import Idealize.ShloMosaic.Lib.Pipeline.Value

/-
  The first value the kernel's body computes from a block of 16 batch elements: the normalised rows.

  Read at the entry (b, n, d) of the block, it is row n of batch element b with its mean removed, multiplied by the
  reciprocal square root of the row's variance plus the constant, scaled by γ at column d and shifted by β at column d:
  the specification's normalised rows of the matrix that the block holds for batch element b.
-/

noncomputable section

open scoped BigOperators

namespace Cert.KernelIdeal.Block

open Cert.KernelIdeal Cert.KernelIdeal.Gen Cert.KernelIdeal.Facts₀ Idealize.ShloMosaic Idealize.ShloMosaic.ValueIdx

/-- The reciprocal square root of a vector, at an entry. -/
theorem rsqrt_at {s : Shape} (x : FVec Ideal s .f32) (i : s.Idx) : rsqrt x i = Ideal.rsqrt (x i) := rfl
/-- The square root of a vector, at an entry. -/
theorem sqrt_at {s : Shape} (x : FVec Ideal s .f32) (i : s.Idx) : sqrt x i = Ideal.sqrt (x i) := rfl
/-- The logistic function of a vector, at an entry. -/
theorem logistic_at {s : Shape} (x : FVec Ideal s .f32) (i : s.Idx) : logistic x i = Ideal.logistic (x i) := rfl

/-- The matrix that a block of 16 batch elements holds for batch element b. -/
def mat (v0 : FVec Ideal S16x100x768 .f32) (b : Fin 16) : Fin 100 → Fin 768 → EReal := fun n d => v0 (ix3 b n d)

/-- A vector of 768 entries as a function of the column. -/
def vec (v : FVec Ideal S768 .f32) : Fin 768 → EReal := fun d => v (ix1 d)

/-- The normalised rows at the entry (b, n, d) of the block. -/
theorem pay1_apply (v0 : FVec Ideal S16x100x768 .f32) (v17 v21 : FVec Ideal S768 .f32) (b : Fin 16) (n : Fin 100) (d : Fin 768) :
    k0_pay1 (F := Ideal) v0 v17 v21 (ix3 b n d) = Cert.Spec.rows (mat v0 b) (vec v17) (vec v21) n d := by
  unfold k0_pay1
  simp only [addf_apply, mulf_apply, subf_apply, divf_apply, rsqrt_at, broadcast_apply,
    Cert.UnitAxes.repeat_last_apply, Cert.UnitAxes.cast_last_apply, Cert.UnitAxes.vector_repeated_apply]
  rw [Cert.BatchOps.sum_axis2_apply (src := v0)]
  rw [Cert.BatchOps.sum_axis2_apply]
  simp only [mulf_apply, subf_apply, divf_apply, broadcast_apply, Cert.UnitAxes.repeat_last_apply, Cert.UnitAxes.cast_last_apply]
  rw [Cert.BatchOps.sum_axis2_apply (src := v0)]
  rfl

end Cert.KernelIdeal.Block

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowMin.lean ====
/-
  The minimum over one axis of an array of extended reals, taken from +∞ (the pattern 0x7F800000).

  The minimum is commutative and associative on the extended reals, so a reduction that takes it over one axis is, at
  each remaining index, the fold of the minimum from the starting value over that axis's coordinates, in any order.  For a
  two-axis array [a, n] reduced over its second axis this is, at row p, the fold over the entries (p, d) of the row, for
  the vector reduction of a kernel and for the host's reduction alike.
-/
import Idealize.ShloMosaic.Lib.ValueIdx
import Idealize.ShloMosaic.PureOps.Reduce
import Idealize.ShloMosaic.PureOps.Ideal.Laws

noncomputable section

namespace Cert.RowMin

open Idealize.ShloMosaic Idealize.ShloMosaic.ValueIdx

/-- A minimum reduction over one axis, read on the extended reals: the fold of the minimum from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the second axis of an [a, n] array of extended reals, taken from +∞: at row p the fold of the
    minimum from +∞ over the entries (p, d). -/
theorem min_over_columns_apply {a n : ℕ} (src : FVec Ideal ⟨2, ![a, n]⟩ .f32)
    (h : (⟨2, ![a, n]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin n)).fold min (Ideal.ofBits .f32 0x7F800000#32) (fun d => src (ix2 p d)) :=
  (multiReduction_minimumf_single src 0x7F800000#32 h hφ hacc (ix1 p)).trans
    (Finset.fold_congr fun d _ => congrArg src (funext fun ax => Fin.ext (by
      match ax with
      | ⟨0, _⟩ => rfl
      | ⟨1, _⟩ => rfl)))

/-- The host's minimum over the second axis of an [a, n] array of extended reals, from the starting value's element: at
    row p the fold of the minimum over the columns q of the entries (p, q). -/
theorem hostReduce_min_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.minimumf (F := Ideal) (φ := φ)) y init h' hu (ix1 p)
      = (Finset.univ : Finset (Fin n)).fold (FloatOps.minimumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.minimumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.RowMin

end
-- ==== Proof.KernelDens.lean ====
import proofs.«122440_j46273977647540_1_alg».proof.Proof.Gen.KernelIdeal.Skeleton
import proofs.«122440_j46273977647540_1_alg».proof.Proof.Spec
import proofs.«122440_j46273977647540_1_alg».proof.Proof.KernelRows
import proofs.«122440_j46273977647540_1_alg».proof.Proof.LibBatchOps
import proofs.«122440_j46273977647540_1_alg».proof.Proof.LibUnitAxes
import proofs.«122440_j46273977647540_1_alg».proof.Proof.LibRowMax
import proofs.«122440_j46273977647540_1_alg».proof.Proof.LibRowMin
import Idealize.ShloMosaic.Lib.ValueIdx
import Idealize.ShloMosaic.Lib.ValueLayout
import Idealize.ShloMosaic.Lib.Pipeline.Value
import Idealize.ShloMosaic.PureOps.Ideal.Laws

/-
  The densities the kernel's body computes from the normalised rows of a block, and their maximum and minimum.

  The batched matrix product of the normalised rows with themselves, contracted over the columns, reads at (b, n, m) the
  inner product of rows n and m of batch element b.  Divided by the product of the two rows' lengths plus the constant
  and summed over m, this is the specification's density of row n.  The maximum and the minimum over n of the densities
  of batch element b are folds from −∞ and from +∞.
-/

noncomputable section

open scoped BigOperators

namespace Cert.KernelIdeal.Block

open Cert.KernelIdeal Cert.KernelIdeal.Gen Cert.KernelIdeal.Facts₀ Idealize.ShloMosaic Idealize.ShloMosaic.ValueIdx

/-! ## The batched product at an entry -/

theorem dot_lhs_0 (i : S16x100x100.Idx) (q : dot_S16x100x768_S16x100x768_S16x100x100_2_2_1_1_0_0.contr.Idx) : (dot_S16x100x768_S16x100x768_S16x100x100_2_2_1_1_0_0.lhsIdx i q 0).val = (i 0).val := by
  unfold DotDims.lhsIdx
  rw [dif_pos (show (0 : Fin S16x100x768.rank) ∈ dot_S16x100x768_S16x100x768_S16x100x100_2_2_1_1_0_0.lhsBatch by decide)]
  rfl
theorem dot_lhs_1 (i : S16x100x100.Idx) (q : dot_S16x100x768_S16x100x768_S16x100x100_2_2_1_1_0_0.contr.Idx) : (dot_S16x100x768_S16x100x768_S16x100x100_2_2_1_1_0_0.lhsIdx i q 1).val = (i 1).val := by
  unfold DotDims.lhsIdx
  rw [dif_neg (show ¬(1 : Fin S16x100x768.rank) ∈ dot_S16x100x768_S16x100x768_S16x100x100_2_2_1_1_0_0.lhsBatch by decide), dif_pos (show (1 : Fin S16x100x768.rank) ∈ dot_S16x100x768_S16x100x768_S16x100x100_2_2_1_1_0_0.lhsNonContracting by decide)]
  rfl
theorem dot_lhs_2 (i : S16x100x100.Idx) (q : dot_S16x100x768_S16x100x768_S16x100x100_2_2_1_1_0_0.contr.Idx) : (dot_S16x100x768_S16x100x768_S16x100x100_2_2_1_1_0_0.lhsIdx i q 2).val = (q ⟨0, by decide⟩).val :=
  dot_S16x100x768_S16x100x768_S16x100x100_2_2_1_1_0_0.lhsIdx_val_of_single rfl i q
theorem dot_rhs_0 (i : S16x100x100.Idx) (q : dot_S16x100x768_S16x100x768_S16x100x100_2_2_1_1_0_0.contr.Idx) : (dot_S16x100x768_S16x100x768_S16x100x100_2_2_1_1_0_0.rhsIdx i q 0).val = (i 0).val := by
  unfold DotDims.rhsIdx
  rw [dif_pos (show (0 : Fin S16x100x768.rank) ∈ dot_S16x100x768_S16x100x768_S16x100x100_2_2_1_1_0_0.rhsBatch by decide)]
  rfl
theorem dot_rhs_1 (i : S16x100x100.Idx) (q : dot_S16x100x768_S16x100x768_S16x100x100_2_2_1_1_0_0.contr.Idx) : (dot_S16x100x768_S16x100x768_S16x100x100_2_2_1_1_0_0.rhsIdx i q 1).val = (i 2).val := by
  unfold DotDims.rhsIdx
  rw [dif_neg (show ¬(1 : Fin S16x100x768.rank) ∈ dot_S16x100x768_S16x100x768_S16x100x100_2_2_1_1_0_0.rhsBatch by decide), dif_pos (show (1 : Fin S16x100x768.rank) ∈ dot_S16x100x768_S16x100x768_S16x100x100_2_2_1_1_0_0.rhsNonContracting by decide)]
  rfl
theorem dot_rhs_2 (i : S16x100x100.Idx) (q : dot_S16x100x768_S16x100x768_S16x100x100_2_2_1_1_0_0.contr.Idx) : (dot_S16x100x768_S16x100x768_S16x100x100_2_2_1_1_0_0.rhsIdx i q 2).val = (q ⟨0, by decide⟩).val :=
  dot_S16x100x768_S16x100x768_S16x100x100_2_2_1_1_0_0.rhsIdx_val_of_single rfl i q

/-- The batched product of two [16, 100, 768] arrays over their last axes, accumulated onto zero: at (b, n, m) the sum over
    k of the left array at (b, n, k) times the right array at (b, m, k). -/
theorem gram_apply (l r : FVec Ideal S16x100x768 .f32) (b : Fin 16) (n m : Fin 100) :
    matmul dot_S16x100x768_S16x100x768_S16x100x100_2_2_1_1_0_0 none l r (constant (F := Ideal) S16x100x100 .f32 0x00000000#32) (ix3 b n m)
      = ∑ k : Fin 768, l (ix3 b n k) * r (ix3 b m k) := by
  simp only [matmul]
  rw [Ideal.matmul_constant_zero_apply, ← Equiv.sum_comp (ValueIdx.contrEquiv1 dot_S16x100x768_S16x100x768_S16x100x100_2_2_1_1_0_0 768 rfl rfl).symm]
  refine Finset.sum_congr rfl fun k _ => ?_
  have hk := ValueIdx.contrEquiv1_symm_val dot_S16x100x768_S16x100x768_S16x100x100_2_2_1_1_0_0 768 rfl rfl k
  have el : dot_S16x100x768_S16x100x768_S16x100x100_2_2_1_1_0_0.lhsIdx (ix3 b n m) ((ValueIdx.contrEquiv1 dot_S16x100x768_S16x100x768_S16x100x100_2_2_1_1_0_0 768 rfl rfl).symm k) = ix3 b n k := funext fun a => Fin.ext (by
    match a with
    | ⟨0, _⟩ => exact dot_lhs_0 _ _
    | ⟨1, _⟩ => exact dot_lhs_1 _ _
    | ⟨2, _⟩ => exact (dot_lhs_2 _ _).trans hk)
  have er : dot_S16x100x768_S16x100x768_S16x100x100_2_2_1_1_0_0.rhsIdx (ix3 b n m) ((ValueIdx.contrEquiv1 dot_S16x100x768_S16x100x768_S16x100x100_2_2_1_1_0_0 768 rfl rfl).symm k) = ix3 b m k := funext fun a => Fin.ext (by
    match a with
    | ⟨0, _⟩ => exact dot_rhs_0 _ _
    | ⟨1, _⟩ => exact dot_rhs_1 _ _
    | ⟨2, _⟩ => exact (dot_rhs_2 _ _).trans hk)
  rw [el, er]

/-! ## The densities -/

/-- The normalised rows of batch element b of a block, as the kernel computes them. -/
def rowsOf (v0 : FVec Ideal S16x100x768 .f32) (v17 v21 : FVec Ideal S768 .f32) (b : Fin 16) : Fin 100 → Fin 768 → EReal :=
  fun n d => k0_pay1 (F := Ideal) v0 v17 v21 (ix3 b n d)

/-- The densities of batch element b of a block, as the kernel computes them. -/
def densOf (v0 : FVec Ideal S16x100x768 .f32) (v17 v21 : FVec Ideal S768 .f32) (b : Fin 16) : Fin 100 → EReal :=
  fun n => k0_pay2 (F := Ideal) v0 v17 v21 (ix2 b n)

/-- The density of row n of batch element b is the specification's density of the kernel's normalised rows. -/
theorem pay2_apply (v0 : FVec Ideal S16x100x768 .f32) (v17 v21 : FVec Ideal S768 .f32) (b : Fin 16) (n : Fin 100) :
    k0_pay2 (F := Ideal) v0 v17 v21 (ix2 b n) = Cert.Spec.dens (rowsOf v0 v17 v21 b) n := by
  unfold k0_pay2 Cert.Spec.dens
  dsimp only
  rw [Cert.BatchOps.sum_axis2_apply]
  refine Finset.sum_congr rfl fun m _ => ?_
  simp only [divf_apply, addf_apply, mulf_apply, sqrt_at, broadcast_apply, Cert.UnitAxes.repeat_last_apply,
    Cert.UnitAxes.repeat_mid_apply, Cert.UnitAxes.cast_last_apply]
  rw [gram_apply, transpose_ix3_021_apply]
  simp only [sqrt_at, Cert.UnitAxes.cast_last_apply]
  rw [Cert.BatchOps.sum_axis2_apply, Cert.BatchOps.sum_axis2_apply]
  rfl

/-- The kept maximum, at (b, 0): the largest density of batch element b. -/
theorem pay3_apply (v0 : FVec Ideal S16x100x768 .f32) (v17 v21 : FVec Ideal S768 .f32) (b : Fin 16) :
    k0_pay3 (F := Ideal) v0 v17 v21 (ix2 b (0 : Fin 1)) = Cert.Spec.densMax (densOf v0 v17 v21 b) := by
  unfold k0_pay3
  rw [Cert.UnitAxes.cast_col_apply, Cert.RowMax.max_over_columns_apply]
  rfl

/-- The kept minimum, at (b, 0): the smallest density of batch element b. -/
theorem pay4_apply (v0 : FVec Ideal S16x100x768 .f32) (v17 v21 : FVec Ideal S768 .f32) (b : Fin 16) :
    k0_pay4 (F := Ideal) v0 v17 v21 (ix2 b (0 : Fin 1)) = Cert.Spec.densMin (densOf v0 v17 v21 b) := by
  unfold k0_pay4
  rw [Cert.UnitAxes.cast_col_apply, Cert.RowMin.min_over_columns_apply]
  rfl

/-- The minimum repeated along the rows, at (b, n): the smallest density of batch element b. -/
theorem pay5_apply (v0 : FVec Ideal S16x100x768 .f32) (v17 v21 : FVec Ideal S768 .f32) (b : Fin 16) (n : Fin 100) :
    k0_pay5 (F := Ideal) v0 v17 v21 (ix2 b n) = Cert.Spec.densMin (densOf v0 v17 v21 b) := by
  unfold k0_pay5
  rw [Cert.UnitAxes.repeat_col_apply]
  exact pay4_apply v0 v17 v21 b

end Cert.KernelIdeal.Block

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelTail.lean ====
import proofs.«122440_j46273977647540_1_alg».proof.Proof.Gen.KernelIdeal.Skeleton
import proofs.«122440_j46273977647540_1_alg».proof.Proof.Spec
import proofs.«122440_j46273977647540_1_alg».proof.Proof.KernelRows
import proofs.«122440_j46273977647540_1_alg».proof.Proof.LibBatchOps
import proofs.«122440_j46273977647540_1_alg».proof.Proof.LibRowOps
import proofs.«122440_j46273977647540_1_alg».proof.Proof.LibUnitAxes
import Idealize.ShloMosaic.Lib.ValueIdx
import Idealize.ShloMosaic.Lib.ValueLayout
import Idealize.ShloMosaic.Lib.Pipeline.Value

/-
  The last value the kernel's body computes for a block, from the normalised rows, the densities, their maximum and
  minimum, the weights w, the bias, the gain and the centres: the value it stores.

  The body's text is cut here into five stages, each read at an entry of batch element b:
  the scaled densities, (density − minimum) / (maximum − minimum + constant); the threshold, the logistic function of the
  w-weighted sum of the scaled densities plus the bias, times the gain; the gates, the positive parts of the scaled
  densities minus the threshold; the weights, each gate over the sum of the gates plus the constant; and the stored value,
  the centre plus one hundredth of the weighted sum over the rows of (normalised row − centre).
-/

noncomputable section

open scoped BigOperators

namespace Cert.KernelIdeal.Block

open Cert.KernelIdeal Cert.KernelIdeal.Gen Idealize.ShloMosaic Idealize.ShloMosaic.ValueIdx

/-- The one entry of a one-entry vector. -/
theorem extract_one (v : FVec Ideal S1 .f32) (h : ∀ a, (![0] : Fin 1 → Nat) a < S1.size a) :
    extractAt ![0] v h = v (ix1 (0 : Fin 1)) :=
  congrArg v (funext fun a => by match a with | ⟨0, _⟩ => rfl)

/-! ## The five stages of the body's last part -/

/-- The scaled densities. -/
def stScaled (v37 v42 : FVec Ideal S16x100 .f32) (v39 v41 : FVec Ideal S16x1 .f32) : FVec Ideal S16x100 .f32 :=
  divf (subf v37 v42)
    (broadcastTo S16x100 (addf (subf v39 v41) (broadcast S16x1 (Scalar.ofBits (F := Ideal) .f32 0x322BCC77#32))) Gen.broadcasts_S16x1_S16x100)

/-- The threshold, one per batch element. -/
def stThr (E : FVec Ideal S16x100 .f32) (v49 : FVec Ideal S1x100 .f32) (v54 v59 : FVec Ideal S1 .f32) : FVec Ideal S16x1 .f32 :=
  mulf (logistic (addf
      (shapeCast S16x1 (multiReduction .add [1] S16 (mulf E (broadcastTo S16x100 v49 Gen.broadcasts_S1x100_S16x100)) 0x00000000#32
        Gen.reduces_S16x100_S16 (.inl rfl) rfl) Gen.shapeCasts_S16_S16x1)
      (broadcast S16x1 (extractAt ![0] v54 Gen.inpos_S1_p0))))
    (broadcast S16x1 (extractAt ![0] v59 Gen.inpos_S1_p0))

/-- The gates. -/
def stGate (E : FVec Ideal S16x100 .f32) (T : FVec Ideal S16x1 .f32) : FVec Ideal S16x100 .f32 :=
  maximumf (subf E (broadcastTo S16x100 T Gen.broadcasts_S16x1_S16x100)) (broadcast S16x100 (Scalar.ofBits (F := Ideal) .f32 0x00000000#32))

/-- The weights. -/
def stWeight (G : FVec Ideal S16x100 .f32) : FVec Ideal S16x100 .f32 :=
  divf G (broadcastTo S16x100
    (addf (shapeCast S16x1 (multiReduction .add [1] S16 G 0x00000000#32 Gen.reduces_S16x100_S16 (.inl rfl) rfl) Gen.shapeCasts_S16_S16x1)
      (broadcast S16x1 (Scalar.ofBits (F := Ideal) .f32 0x322BCC77#32))) Gen.broadcasts_S16x1_S16x100)

/-- The stored value. -/
def stShift (v24 : FVec Ideal S16x100x768 .f32) (W : FVec Ideal S16x100 .f32) (v73 : FVec Ideal S16x1x768 .f32) : FVec Ideal S16x1x768 .f32 :=
  addf v73 (divf
    (shapeCast S16x1x768 (multiReduction .add [1] S16x768
        (mulf (subf v24 (broadcastTo S16x100x768 v73 Gen.broadcasts_S16x1x768_S16x100x768))
          (broadcastTo S16x100x768 (shapeCast S16x100x1 W Gen.shapeCasts_S16x100_S16x100x1) Gen.broadcasts_S16x100x1_S16x100x768))
        0x00000000#32 Gen.reduces_S16x100x768_S16x768 (.inl rfl) rfl) Gen.shapeCasts_S16x768_S16x1x768)
    (broadcast S16x1x768 (Scalar.ofBits (F := Ideal) .f32 0x42C80000#32)))

/-- The body's last part is the five stages composed. -/
theorem pay6_eq (v24 : FVec Ideal S16x100x768 .f32) (v37 : FVec Ideal S16x100 .f32) (v39 v41 : FVec Ideal S16x1 .f32)
    (v42 : FVec Ideal S16x100 .f32) (v49 : FVec Ideal S1x100 .f32) (v54 v59 : FVec Ideal S1 .f32) (v73 : FVec Ideal S16x1x768 .f32) :
    k0_pay6 (F := Ideal) v24 v37 v39 v41 v42 v49 v54 v59 v73
      = stShift v24 (stWeight (stGate (stScaled v37 v42 v39 v41) (stThr (stScaled v37 v42 v39 v41) v49 v54 v59))) v73 := rfl

/-! ## Each stage at an entry -/

theorem stScaled_apply (v37 v42 : FVec Ideal S16x100 .f32) (v39 v41 : FVec Ideal S16x1 .f32) (b : Fin 16) (n : Fin 100) :
    stScaled v37 v42 v39 v41 (ix2 b n)
      = Ideal.div (v37 (ix2 b n) - v42 (ix2 b n)) (v39 (ix2 b (0 : Fin 1)) - v41 (ix2 b (0 : Fin 1)) + Cert.Spec.epsDiv) := by
  unfold stScaled
  simp only [divf_apply, subf_apply, addf_apply, broadcast_apply, Cert.UnitAxes.repeat_col_apply]
  rfl

theorem stThr_apply (E : FVec Ideal S16x100 .f32) (v49 : FVec Ideal S1x100 .f32) (v54 v59 : FVec Ideal S1 .f32) (b : Fin 16) :
    stThr E v49 v54 v59 (ix2 b (0 : Fin 1))
      = Cert.Spec.thr (fun n => E (ix2 b n)) (fun n => v49 (ix2 (0 : Fin 1) n)) (v54 (ix1 (0 : Fin 1))) (v59 (ix1 (0 : Fin 1))) := by
  unfold stThr Cert.Spec.thr
  simp only [mulf_apply, logistic_at, addf_apply, broadcast_apply, Cert.UnitAxes.cast_col_apply, extract_one]
  rw [Cert.RowOps.sum_over_columns_apply]
  simp only [mulf_apply, broadcastTo_1b_ab_apply]

theorem stGate_apply (E : FVec Ideal S16x100 .f32) (T : FVec Ideal S16x1 .f32) (b : Fin 16) (n : Fin 100) :
    stGate E T (ix2 b n) = max (E (ix2 b n) - T (ix2 b (0 : Fin 1))) Cert.Spec.zero := by
  unfold stGate
  simp only [maximumf_apply, subf_apply, broadcast_apply, Cert.UnitAxes.repeat_col_apply]
  rfl

theorem stWeight_apply (G : FVec Ideal S16x100 .f32) (b : Fin 16) (n : Fin 100) :
    stWeight G (ix2 b n) = Ideal.div (G (ix2 b n)) ((∑ k : Fin 100, G (ix2 b k)) + Cert.Spec.epsDiv) := by
  unfold stWeight
  simp only [divf_apply, addf_apply, broadcast_apply, Cert.UnitAxes.repeat_col_apply, Cert.UnitAxes.cast_col_apply]
  rw [Cert.RowOps.sum_over_columns_apply]
  rfl

theorem stShift_apply (v24 : FVec Ideal S16x100x768 .f32) (W : FVec Ideal S16x100 .f32) (v73 : FVec Ideal S16x1x768 .f32)
    (b : Fin 16) (d : Fin 768) :
    stShift v24 W v73 (ix3 b (0 : Fin 1) d)
      = Cert.Spec.shifted (fun n d => v24 (ix3 b n d)) (fun n => W (ix2 b n)) (fun d => v73 (ix3 b (0 : Fin 1) d)) d := by
  unfold stShift Cert.Spec.shifted
  simp only [addf_apply, divf_apply, broadcast_apply, Cert.UnitAxes.cast_mid_apply]
  rw [Cert.BatchOps.sum_axis1_apply]
  simp only [mulf_apply, subf_apply, Cert.UnitAxes.repeat_mid_apply, Cert.BatchOps.keep_axis2_apply]
  rfl

/-! ## The stored value at an entry -/

/-- The value the body stores, at (b, 0, d), from the values its first part hands over. -/
theorem pay6_apply (v24 : FVec Ideal S16x100x768 .f32) (v37 : FVec Ideal S16x100 .f32) (v39 v41 : FVec Ideal S16x1 .f32)
    (v42 : FVec Ideal S16x100 .f32) (v49 : FVec Ideal S1x100 .f32) (v54 v59 : FVec Ideal S1 .f32) (v73 : FVec Ideal S16x1x768 .f32)
    (b : Fin 16) (d : Fin 768) :
    k0_pay6 (F := Ideal) v24 v37 v39 v41 v42 v49 v54 v59 v73 (ix3 b (0 : Fin 1) d)
      = Cert.Spec.shifted (fun n d => v24 (ix3 b n d))
          (Cert.Spec.weight
            (fun n => Ideal.div (v37 (ix2 b n) - v42 (ix2 b n)) (v39 (ix2 b (0 : Fin 1)) - v41 (ix2 b (0 : Fin 1)) + Cert.Spec.epsDiv))
            (fun n => v49 (ix2 (0 : Fin 1) n)) (v54 (ix1 (0 : Fin 1))) (v59 (ix1 (0 : Fin 1))))
          (fun d => v73 (ix3 b (0 : Fin 1) d)) d := by
  rw [pay6_eq, stShift_apply]
  simp only [stWeight_apply, stGate_apply, stThr_apply, stScaled_apply]
  rfl

end Cert.KernelIdeal.Block

end
-- ==== Proof.KernelArray.lean ====
import proofs.«122440_j46273977647540_1_alg».proof.Proof.Gen.KernelIdeal.Value
import proofs.«122440_j46273977647540_1_alg».proof.Proof.Spec
import proofs.«122440_j46273977647540_1_alg».proof.Proof.Whole
import proofs.«122440_j46273977647540_1_alg».proof.Proof.KernelRows
import proofs.«122440_j46273977647540_1_alg».proof.Proof.KernelDens
import proofs.«122440_j46273977647540_1_alg».proof.Proof.KernelTail
import Idealize.ShloMosaic.Lib.ValueIdx
import Idealize.ShloMosaic.Lib.Pipeline.Value

/-
  From the blocks to the array: what the kernel leaves in its result array.

  The grid has 64 points; point t stages rows 16 t … 16 t + 15 of the first two arguments and the whole of the other
  five, and writes back rows 16 t … 16 t + 15 of the result.  So entry (b, 0, d) of the block that point t writes back is
  the specification's result for batch element 16 t + b at column d, the 64 blocks tile the result array, and the array
  ends holding the whole result.
-/

noncomputable section

open scoped BigOperators

namespace Cert.KernelIdeal.Block

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## One block: the stored value at an entry -/

/-- The value the body stores for batch element b of a block at column d is the specification's result for the matrix,
    the centre and the parameters the blocks hold. -/
theorem block_apply (x0 : FVec Ideal S16x100x768 .f32) (x1 : FVec Ideal S16x1x768 .f32) (x2 : FVec Ideal S1x100 .f32)
    (x3 x4 : FVec Ideal S1 .f32) (x5 x6 : FVec Ideal S768 .f32) (b : Fin 16) (d : Fin 768) :
    k0_pay6 (F := Ideal) (k0_pay1 x0 x5 x6) (k0_pay2 x0 x5 x6) (k0_pay3 x0 x5 x6) (k0_pay4 x0 x5 x6) (k0_pay5 x0 x5 x6) x2 x3 x4 x1
        (ix3 b (0 : Fin 1) d)
      = Cert.Spec.result (mat x0 b) (fun d => x1 (ix3 b (0 : Fin 1) d)) (vec x5) (vec x6) (fun n => x2 (ix2 (0 : Fin 1) n))
          (x3 (ix1 (0 : Fin 1))) (x4 (ix1 (0 : Fin 1))) d := by
  have hY : rowsOf x0 x5 x6 b = Cert.Spec.rows (mat x0 b) (vec x5) (vec x6) :=
    funext fun n => funext fun d => pay1_apply x0 x5 x6 b n d
  have hD : densOf x0 x5 x6 b = Cert.Spec.dens (Cert.Spec.rows (mat x0 b) (vec x5) (vec x6)) :=
    funext fun n => (pay2_apply x0 x5 x6 b n).trans (by rw [hY])
  rw [pay6_apply]
  simp only [pay5_apply, pay3_apply, pay4_apply]
  show Cert.Spec.shifted (rowsOf x0 x5 x6 b)
      (Cert.Spec.weight (Cert.Spec.scaled (densOf x0 x5 x6 b) (Cert.Spec.densMax (densOf x0 x5 x6 b)) (Cert.Spec.densMin (densOf x0 x5 x6 b)))
        _ _ _) _ d = _
  rw [hD, hY]
  rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the result's staging buffer, at an entry y: the specification's result for batch element
    y 0 of the blocks at column y 2. -/
theorem out_at (x0 : FVec Ideal S16x100x768 .f32) (x1 : FVec Ideal S16x1x768 .f32) (x2 : FVec Ideal S1x100 .f32)
    (x3 x4 : FVec Ideal S1 .f32) (x5 x6 : FVec Ideal S768 .f32) (y : S16x1x768.Idx) (b : Fin 16) (d : Fin 768)
    (hb : (y 0).val = b.val) (hd : (y 2).val = d.val) :
    out0_7 (F := Ideal) x0 x1 x2 x3 x4 x5 x6 y
      = Cert.Spec.result (mat x0 b) (fun d => x1 (ix3 b (0 : Fin 1) d)) (vec x5) (vec x6) (fun n => x2 (ix2 (0 : Fin 1) n))
          (x3 (ix1 (0 : Fin 1))) (x4 (ix1 (0 : Fin 1))) d := by
  have hy : y = ix3 b (0 : Fin 1) d := by
    funext a; apply Fin.ext
    match a with
    | ⟨0, _⟩ => exact hb
    | ⟨1, _⟩ => have h1 : (y 1).val < 1 := (y 1).isLt; show (y 1).val = 0; omega
    | ⟨2, _⟩ => exact hd
  subst hy
  unfold out0_7
  rw [View.canon_unit_zero hz3]
  simp only [View.ld_unit_zero (S := S16x100x768) hz3, View.ld_unit_zero (S := S768) hz1, View.ld_unit_zero (S := S1x100) hz2,
    View.ld_unit_zero (S := S1) hz1, View.ld_unit_zero (S := S16x1x768) hz3]
  exact block_apply x0 x1 x2 x3 x4 x5 x6 b d

/-! ## The windows' blocks as rows of the argument arrays -/

variable (m : (ℓ : Loc nD τ sig) → Buf (Elt Ideal) ℓ) (ρ : Dev nD → PrngReg)

/-- The printed index maps over the 64 grid points: the two batched arguments and the result move with the point along
    the first axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 1) = 0 ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- Block t of the first argument, at (b, n, d): the argument at (16 t + b, n, d). -/
theorem blk0_apply (c : Dev nD) (t : Fin cfg0.N) (b : Fin 16) (n : Fin 100) (d : Fin 768) (g : Fin 1024)
    (hg : g.val = t.val * 16 + b.val) :
    (iblk m c 0 t : FVec Ideal S16x100x768 .f32) (ix3 b n d) = (V m c main_arg0 : S1024x100x768.Idx → EReal) (ix3 g n d) := by
  obtain ⟨f0, f1, f2, -⟩ := idx_facts t
  show V m c main_arg0 (((cfg0.win 0).blk t).view.emb (ix3 b n d)) = V m c main_arg0 (ix3 g n d)
  refine congrArg _ (funext fun a => Fin.ext ?_)
  match a with
  | ⟨0, _⟩ => show win0_0.index t (0 : Fin 3) * 16 + 1 * b.val = g.val; omega
  | ⟨1, _⟩ => show win0_0.index t (1 : Fin 3) * 100 + 1 * n.val = n.val; omega
  | ⟨2, _⟩ => show win0_0.index t (2 : Fin 3) * 768 + 1 * d.val = d.val; omega

/-- Block t of the second argument, at (b, 0, d): the argument at (16 t + b, 0, d). -/
theorem blk1_apply (c : Dev nD) (t : Fin cfg0.N) (b : Fin 16) (d : Fin 768) (g : Fin 1024)
    (hg : g.val = t.val * 16 + b.val) :
    (iblk m c 1 t : FVec Ideal S16x1x768 .f32) (ix3 b (0 : Fin 1) d) = (V m c main_arg1 : S1024x1x768.Idx → EReal) (ix3 g (0 : Fin 1) d) := by
  obtain ⟨-, -, -, f0, f1, f2, -⟩ := idx_facts t
  show V m c main_arg1 (((cfg0.win 1).blk t).view.emb (ix3 b (0 : Fin 1) d)) = V m c main_arg1 (ix3 g (0 : Fin 1) d)
  refine congrArg _ (funext fun a => Fin.ext ?_)
  match a with
  | ⟨0, _⟩ => show win0_1.index t (0 : Fin 3) * 16 + 1 * b.val = g.val; omega
  | ⟨1, _⟩ => show win0_1.index t (1 : Fin 3) * 1 + 1 * 0 = 0; omega
  | ⟨2, _⟩ => show win0_1.index t (2 : Fin 3) * 768 + 1 * d.val = d.val; omega

/-- The block of the row weights is the whole argument. -/
theorem blk2_apply (c : Dev nD) (t : Fin cfg0.N) (n : Fin 100) :
    (iblk m c 2 t : FVec Ideal S1x100 .f32) (ix2 (0 : Fin 1) n) = (V m c main_arg5 : S1x100.Idx → EReal) (ix2 (0 : Fin 1) n) := by
  obtain ⟨-, -, -, -, -, -, f0, f1, -⟩ := idx_facts t
  show V m c main_arg5 (((cfg0.win 2).blk t).view.emb (ix2 (0 : Fin 1) n)) = V m c main_arg5 (ix2 (0 : Fin 1) n)
  refine congrArg _ (funext fun a => Fin.ext ?_)
  match a with
  | ⟨0, _⟩ => show win0_2.index t (0 : Fin 2) * 1 + 1 * 0 = 0; omega
  | ⟨1, _⟩ => show win0_2.index t (1 : Fin 2) * 100 + 1 * n.val = n.val; omega

/-- The block of the bias is the whole argument. -/
theorem blk3_apply (c : Dev nD) (t : Fin cfg0.N) :
    (iblk m c 3 t : FVec Ideal S1 .f32) (ix1 (0 : Fin 1)) = (V m c main_arg6 : S1.Idx → EReal) (ix1 (0 : Fin 1)) := by
  obtain ⟨-, -, -, -, -, -, -, -, f0, -⟩ := idx_facts t
  show V m c main_arg6 (((cfg0.win 3).blk t).view.emb (ix1 (0 : Fin 1))) = V m c main_arg6 (ix1 (0 : Fin 1))
  refine congrArg _ (funext fun a => Fin.ext ?_)
  match a with
  | ⟨0, _⟩ => show win0_3.index t (0 : Fin 1) * 1 + 1 * 0 = 0; omega

/-- The block of the gain is the whole argument. -/
theorem blk4_apply (c : Dev nD) (t : Fin cfg0.N) :
    (iblk m c 4 t : FVec Ideal S1 .f32) (ix1 (0 : Fin 1)) = (V m c main_arg2 : S1.Idx → EReal) (ix1 (0 : Fin 1)) := by
  obtain ⟨-, -, -, -, -, -, -, -, -, f0, -⟩ := idx_facts t
  show V m c main_arg2 (((cfg0.win 4).blk t).view.emb (ix1 (0 : Fin 1))) = V m c main_arg2 (ix1 (0 : Fin 1))
  refine congrArg _ (funext fun a => Fin.ext ?_)
  match a with
  | ⟨0, _⟩ => show win0_4.index t (0 : Fin 1) * 1 + 1 * 0 = 0; omega

/-- The block of the scale is the whole argument. -/
theorem blk5_apply (c : Dev nD) (t : Fin cfg0.N) (d : Fin 768) :
    (iblk m c 5 t : FVec Ideal S768 .f32) (ix1 d) = (V m c main_arg3 : S768.Idx → EReal) (ix1 d) := by
  obtain ⟨-, -, -, -, -, -, -, -, -, -, f0, -⟩ := idx_facts t
  show V m c main_arg3 (((cfg0.win 5).blk t).view.emb (ix1 d)) = V m c main_arg3 (ix1 d)
  refine congrArg _ (funext fun a => Fin.ext ?_)
  match a with
  | ⟨0, _⟩ => show win0_5.index t (0 : Fin 1) * 768 + 1 * d.val = d.val; omega

/-- The block of the shift is the whole argument. -/
theorem blk6_apply (c : Dev nD) (t : Fin cfg0.N) (d : Fin 768) :
    (iblk m c 6 t : FVec Ideal S768 .f32) (ix1 d) = (V m c main_arg4 : S768.Idx → EReal) (ix1 d) := by
  obtain ⟨-, -, -, -, -, -, -, -, -, -, -, f0, -⟩ := idx_facts t
  show V m c main_arg4 (((cfg0.win 6).blk t).view.emb (ix1 d)) = V m c main_arg4 (ix1 d)
  refine congrArg _ (funext fun a => Fin.ext ?_)
  match a with
  | ⟨0, _⟩ => show win0_6.index t (0 : Fin 1) * 768 + 1 * d.val = d.val; omega

/-! ## The array after the run -/

/-- The whole result of the argument arrays as the region finds them. -/
abbrev wholeOf (c : Dev nD) : S1024x1x768.Idx → EReal :=
  Cert.Whole.G (V m c main_arg0) (V m c main_arg1) (V m c main_arg2) (V m c main_arg3) (V m c main_arg4) (V m c main_arg5) (V m c main_arg6)

/-- What point t writes back is block t of the whole result. -/
theorem flushed_eq (c : Dev nD) (t : Fin cfg0.N) :
    (dats m 0 c).flushed 7 t = ((cfg0.win 7).blk t).view.read (Elt Ideal) (wholeOf m c) := by
  rw [flushed7]
  have hN : t.val < 64 := lt_of_lt_of_eq t.isLt N_0
  obtain ⟨-, -, -, -, -, -, -, -, -, -, -, -, f0, f1, f2⟩ := idx_facts t
  funext j
  have hj0 : (j 0).val < 16 := (j 0).isLt
  have hj2 : (j 2).val < 768 := (j 2).isLt
  let b : Fin 16 := ⟨(j 0).val, hj0⟩
  let d : Fin 768 := ⟨(j 2).val, hj2⟩
  let g : Fin 1024 := ⟨t.val * 16 + (j 0).val, by omega⟩
  refine (out_at (iblk m c 0 t) (iblk m c 1 t) (iblk m c 2 t) (iblk m c 3 t) (iblk m c 4 t) (iblk m c 5 t) (iblk m c 6 t) j b d rfl rfl).trans ?_
  refine Eq.trans ?_ (Cert.Whole.G_apply _ _ _ _ _ _ _ (((cfg0.win 7).blk t).view.emb j) g d
    (show win0_7.index t (0 : Fin 3) * 16 + 1 * (j 0).val = t.val * 16 + (j 0).val by omega)
    (show win0_7.index t (2 : Fin 3) * 768 + 1 * (j 2).val = (j 2).val by omega)).symm
  have e0 : mat (iblk m c 0 t) b = fun n d => (V m c main_arg0 : S1024x100x768.Idx → EReal) (ix3 g n d) :=
    funext fun n => funext fun d => blk0_apply m c t b n d g rfl
  have e1 : (fun d => (iblk m c 1 t : FVec Ideal S16x1x768 .f32) (ix3 b (0 : Fin 1) d))
      = fun d => (V m c main_arg1 : S1024x1x768.Idx → EReal) (ix3 g (0 : Fin 1) d) :=
    funext fun d => blk1_apply m c t b d g rfl
  have e2 : (fun n => (iblk m c 2 t : FVec Ideal S1x100 .f32) (ix2 (0 : Fin 1) n))
      = fun n => (V m c main_arg5 : S1x100.Idx → EReal) (ix2 (0 : Fin 1) n) := funext fun n => blk2_apply m c t n
  have e5 : vec (iblk m c 5 t) = fun d => (V m c main_arg3 : S768.Idx → EReal) (ix1 d) := funext fun d => blk5_apply m c t d
  have e6 : vec (iblk m c 6 t) = fun d => (V m c main_arg4 : S768.Idx → EReal) (ix1 d) := funext fun d => blk6_apply m c t d
  rw [e0, e1, e2, e5, e6, blk3_apply m c t, blk4_apply m c t]
  rfl

/-- An index of the result array is in point t's block iff each coordinate is in the block's range on its axis. -/
theorem mem_blk (t : Fin cfg0.N) (i : S1024x1x768.Idx) :
    i ∈ ((cfg0.win 7).blk t).view.set ↔ ∀ a : Fin 3, win0_7.index t a * S16x1x768.size a ≤ (i a).val ∧ (i a).val < win0_7.index t a * S16x1x768.size a + S16x1x768.size a := by
  show i ∈ ((View.whole main_v0).slice (win0_7.rect t)).set ↔ _
  rw [View.set_slice_whole, Rect.mem_set_unit]
  exact Iff.rfl

/-- Every index of the result array lies in the block of the point that its row's sixteenth names. -/
theorem cover (i : S1024x1x768.Idx) : ∃ t : Fin cfg0.N, (cfg0.win 7).flush t = true ∧ i ∈ ((cfg0.win 7).blk t).view.set := by
  have hi0 : (i 0).val < 1024 := (i 0).isLt
  have hi1 : (i 1).val < 1 := (i 1).isLt
  have hi2 : (i 2).val < 768 := (i 2).isLt
  have hN : cfg0.N = 64 := N_0
  let t : Fin cfg0.N := ⟨(i 0).val / 16, by rw [hN]; omega⟩
  obtain ⟨-, -, -, -, -, -, -, -, -, -, -, -, f0, f1, f2⟩ := idx_facts t
  have ht : t.val = (i 0).val / 16 := rfl
  refine ⟨t, flush0_7 t, ?_⟩
  rw [mem_blk]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 1 ≤ (i 1).val ∧ (i 1).val < win0_7.index t (1 : Fin 3) * 1 + 1; omega
  | ⟨2, _⟩ => show win0_7.index t (2 : Fin 3) * 768 ≤ (i 2).val ∧ (i 2).val < win0_7.index t (2 : Fin 3) * 768 + 768; omega

/-- The result array after the run is the whole result of the argument arrays. -/
theorem final (c : Dev nD) : (dats m 0 c).arrAt 7 cfg0.N = wholeOf m c :=
  (dats m 0 c).arrAt_eq_of_cover 7 (wholeOf m c) (fun t _ => flushed_eq m c t) (cover)

/-- The run: the result array ends at the whole result of the argument arrays as launched, the arguments unchanged. -/
theorem run : θ_run defs (onTc (τ := τ) (main (F := Ideal))) ⟨m, fun _ => 0, ρ⟩ fun r => ∀ c : Dev nD,
      r.2.mem ((c : Thread nD τ).loc main_v0)
        = Cert.Whole.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Block

end
-- ==== Proof.RefAt.lean ====
import proofs.«122440_j46273977647540_1_alg».proof.Proof.RefReadP
import Idealize.ShloMosaic.Lib.ValueIdx

/-
  The reference's operations that move or combine entries, each read at an index given by its coordinates.

  A broadcast, a transpose or a kept unit axis reads one entry of its operand: which one is a matter of coordinates
  only (a repeated axis reads coordinate 0, a transposed pair is swapped).  A sum over an axis reads, at the remaining
  coordinates, the starting value plus the sum over the summed coordinate k; a contraction of two arrays over an axis
  reads the sum over k of the products of the two entries with k in the contracted place.  The first group of
  statements says where each operation's index function sends coordinates; the second restates the operation's
  reading at coordinates.
-/

noncomputable section

open scoped BigOperators

namespace Cert.ReferenceIdeal.At

open Cert.ReferenceIdeal Cert.ReferenceIdeal.Gen Cert.ReferenceIdeal.ReadP Idealize.ShloMosaic Idealize.ShloMosaic.ValueIdx

/-! ## Where each index function sends coordinates -/

theorem e_idx_main_v0 (p0 : Fin 1024) (p1 : Fin 100) (k : Fin 768) : idx_main_v0 (ix2 p0 p1) k = ix3 p0 p1 k :=
  funext fun a => Fin.ext (by match a with | ⟨0, _⟩ => rfl | ⟨1, _⟩ => rfl | ⟨2, _⟩ => rfl)
theorem e_idx_main_v1 (p0 : Fin 1024) (p1 : Fin 100) (p2 : Fin 1) : idx_main_v1 (ix3 p0 p1 p2) = ix2 p0 p1 :=
  funext fun a => Fin.ext (by match a with | ⟨0, _⟩ => rfl | ⟨1, _⟩ => rfl)
theorem e_idx_main_v4 (p0 : Fin 1024) (p1 : Fin 100) (p2 : Fin 768) : idx_main_v4 (ix3 p0 p1 p2) = ix3 p0 p1 (0 : Fin 1) :=
  funext fun a => Fin.ext (by match a with | ⟨0, _⟩ => rfl | ⟨1, _⟩ => rfl | ⟨2, _⟩ => rfl)
theorem e_idx_main_v7 (p0 : Fin 1024) (p1 : Fin 100) (k : Fin 768) : idx_main_v7 (ix2 p0 p1) k = ix3 p0 p1 k :=
  funext fun a => Fin.ext (by match a with | ⟨0, _⟩ => rfl | ⟨1, _⟩ => rfl | ⟨2, _⟩ => rfl)
theorem e_idx_main_v8 (p0 : Fin 1024) (p1 : Fin 100) (p2 : Fin 1) : idx_main_v8 (ix3 p0 p1 p2) = ix2 p0 p1 :=
  funext fun a => Fin.ext (by match a with | ⟨0, _⟩ => rfl | ⟨1, _⟩ => rfl)
theorem e_idx_main_v11 (p0 : Fin 1024) (p1 : Fin 100) (p2 : Fin 768) : idx_main_v11 (ix3 p0 p1 p2) = ix3 p0 p1 (0 : Fin 1) :=
  funext fun a => Fin.ext (by match a with | ⟨0, _⟩ => rfl | ⟨1, _⟩ => rfl | ⟨2, _⟩ => rfl)
theorem e_idx_main_v16 (p0 : Fin 1024) (p1 : Fin 100) (p2 : Fin 768) : idx_main_v16 (ix3 p0 p1 p2) = ix3 p0 p1 (0 : Fin 1) :=
  funext fun a => Fin.ext (by match a with | ⟨0, _⟩ => rfl | ⟨1, _⟩ => rfl | ⟨2, _⟩ => rfl)
theorem e_idx_main_v18 (p0 : Fin 1) (p1 : Fin 1) (p2 : Fin 768) : idx_main_v18 (ix3 p0 p1 p2) = ix1 p2 :=
  funext fun a => Fin.ext (by match a with | ⟨0, _⟩ => rfl)
theorem e_idx_main_v19 (p0 : Fin 1024) (p1 : Fin 100) (p2 : Fin 768) : idx_main_v19 (ix3 p0 p1 p2) = ix3 (0 : Fin 1) (0 : Fin 1) p2 :=
  funext fun a => Fin.ext (by match a with | ⟨0, _⟩ => rfl | ⟨1, _⟩ => rfl | ⟨2, _⟩ => rfl)
theorem e_idx_main_v21 (p0 : Fin 1) (p1 : Fin 1) (p2 : Fin 768) : idx_main_v21 (ix3 p0 p1 p2) = ix1 p2 :=
  funext fun a => Fin.ext (by match a with | ⟨0, _⟩ => rfl)
theorem e_idx_main_v22 (p0 : Fin 1024) (p1 : Fin 100) (p2 : Fin 768) : idx_main_v22 (ix3 p0 p1 p2) = ix3 (0 : Fin 1) (0 : Fin 1) p2 :=
  funext fun a => Fin.ext (by match a with | ⟨0, _⟩ => rfl | ⟨1, _⟩ => rfl | ⟨2, _⟩ => rfl)
theorem e_lidx_main_v24 (p0 : Fin 1024) (p1 : Fin 100) (p2 : Fin 100) (k : Fin 768) : lidx_main_v24 (ix3 p0 p1 p2) k = ix3 p0 p1 k :=
  funext fun a => Fin.ext (by match a with | ⟨0, _⟩ => rfl | ⟨1, _⟩ => rfl | ⟨2, _⟩ => rfl)
theorem e_ridx_main_v24 (p0 : Fin 1024) (p1 : Fin 100) (p2 : Fin 100) (k : Fin 768) : ridx_main_v24 (ix3 p0 p1 p2) k = ix3 p0 p2 k :=
  funext fun a => Fin.ext (by match a with | ⟨0, _⟩ => rfl | ⟨1, _⟩ => rfl | ⟨2, _⟩ => rfl)
theorem e_idx_main_call0_v1 (p0 : Fin 1024) (p1 : Fin 100) (k : Fin 768) : idx_main_call0_v1 (ix2 p0 p1) k = ix3 p0 p1 k :=
  funext fun a => Fin.ext (by match a with | ⟨0, _⟩ => rfl | ⟨1, _⟩ => rfl | ⟨2, _⟩ => rfl)
theorem e_idx_main_call0_v2 (p0 : Fin 1024) (p1 : Fin 100) (p2 : Fin 1) : idx_main_call0_v2 (ix3 p0 p1 p2) = ix2 p0 p1 :=
  funext fun a => Fin.ext (by match a with | ⟨0, _⟩ => rfl | ⟨1, _⟩ => rfl)
theorem e_idx_main_v26 (p0 : Fin 1024) (p1 : Fin 1) (p2 : Fin 100) : idx_main_v26 (ix3 p0 p1 p2) = ix3 p0 p2 p1 :=
  funext fun a => Fin.ext (by match a with | ⟨0, _⟩ => rfl | ⟨1, _⟩ => rfl | ⟨2, _⟩ => rfl)
theorem e_idx_main_v27 (p0 : Fin 1024) (p1 : Fin 100) (p2 : Fin 100) : idx_main_v27 (ix3 p0 p1 p2) = ix3 p0 p1 (0 : Fin 1) :=
  funext fun a => Fin.ext (by match a with | ⟨0, _⟩ => rfl | ⟨1, _⟩ => rfl | ⟨2, _⟩ => rfl)
theorem e_idx_main_v28 (p0 : Fin 1024) (p1 : Fin 100) (p2 : Fin 100) : idx_main_v28 (ix3 p0 p1 p2) = ix3 p0 (0 : Fin 1) p2 :=
  funext fun a => Fin.ext (by match a with | ⟨0, _⟩ => rfl | ⟨1, _⟩ => rfl | ⟨2, _⟩ => rfl)
theorem e_idx_main_v33 (p0 : Fin 1024) (p1 : Fin 100) (k : Fin 100) : idx_main_v33 (ix2 p0 p1) k = ix3 p0 p1 k :=
  funext fun a => Fin.ext (by match a with | ⟨0, _⟩ => rfl | ⟨1, _⟩ => rfl | ⟨2, _⟩ => rfl)
theorem e_idx_main_v35 (p0 : Fin 1024) (p1 : Fin 1) : idx_main_v35 (ix2 p0 p1) = ix1 p0 :=
  funext fun a => Fin.ext (by match a with | ⟨0, _⟩ => rfl)
theorem e_idx_main_v37 (p0 : Fin 1024) (p1 : Fin 1) : idx_main_v37 (ix2 p0 p1) = ix1 p0 :=
  funext fun a => Fin.ext (by match a with | ⟨0, _⟩ => rfl)
theorem e_idx_main_v38 (p0 : Fin 1024) (p1 : Fin 100) : idx_main_v38 (ix2 p0 p1) = ix2 p0 (0 : Fin 1) :=
  funext fun a => Fin.ext (by match a with | ⟨0, _⟩ => rfl | ⟨1, _⟩ => rfl)
theorem e_idx_main_v43 (p0 : Fin 1024) (p1 : Fin 100) : idx_main_v43 (ix2 p0 p1) = ix2 p0 (0 : Fin 1) :=
  funext fun a => Fin.ext (by match a with | ⟨0, _⟩ => rfl | ⟨1, _⟩ => rfl)
theorem e_idx_main_v45 (p0 : Fin 100) (p1 : Fin 1) : idx_main_v45 (ix2 p0 p1) = ix2 p1 p0 :=
  funext fun a => Fin.ext (by match a with | ⟨0, _⟩ => rfl | ⟨1, _⟩ => rfl)
theorem e_lidx_main_v46 (p0 : Fin 1024) (p1 : Fin 1) (k : Fin 100) : lidx_main_v46 (ix2 p0 p1) k = ix2 p0 k :=
  funext fun a => Fin.ext (by match a with | ⟨0, _⟩ => rfl | ⟨1, _⟩ => rfl)
theorem e_ridx_main_v46 (p0 : Fin 1024) (p1 : Fin 1) (k : Fin 100) : ridx_main_v46 (ix2 p0 p1) k = ix2 k p1 :=
  funext fun a => Fin.ext (by match a with | ⟨0, _⟩ => rfl | ⟨1, _⟩ => rfl)
theorem e_idx_main_v47 (p0 : Fin 1) (p1 : Fin 1) : idx_main_v47 (ix2 p0 p1) = ix1 (0 : Fin 1) :=
  funext fun a => Fin.ext (by match a with | ⟨0, _⟩ => rfl)
theorem e_idx_main_v48 (p0 : Fin 1024) (p1 : Fin 1) : idx_main_v48 (ix2 p0 p1) = ix2 (0 : Fin 1) (0 : Fin 1) :=
  funext fun a => Fin.ext (by match a with | ⟨0, _⟩ => rfl | ⟨1, _⟩ => rfl)
theorem e_idx_main_v56 (p0 : Fin 1) (p1 : Fin 1) : idx_main_v56 (ix2 p0 p1) = ix1 (0 : Fin 1) :=
  funext fun a => Fin.ext (by match a with | ⟨0, _⟩ => rfl)
theorem e_idx_main_v57 (p0 : Fin 1024) (p1 : Fin 1) : idx_main_v57 (ix2 p0 p1) = ix2 (0 : Fin 1) (0 : Fin 1) :=
  funext fun a => Fin.ext (by match a with | ⟨0, _⟩ => rfl | ⟨1, _⟩ => rfl)
theorem e_idx_main_v59 (p0 : Fin 1024) (p1 : Fin 100) : idx_main_v59 (ix2 p0 p1) = ix2 p0 (0 : Fin 1) :=
  funext fun a => Fin.ext (by match a with | ⟨0, _⟩ => rfl | ⟨1, _⟩ => rfl)
theorem e_idx_main_v62 (p0 : Fin 1024) (k : Fin 100) : idx_main_v62 (ix1 p0) k = ix2 p0 k :=
  funext fun a => Fin.ext (by match a with | ⟨0, _⟩ => rfl | ⟨1, _⟩ => rfl)
theorem e_idx_main_v63 (p0 : Fin 1024) (p1 : Fin 1) : idx_main_v63 (ix2 p0 p1) = ix1 p0 :=
  funext fun a => Fin.ext (by match a with | ⟨0, _⟩ => rfl)
theorem e_idx_main_v66 (p0 : Fin 1024) (p1 : Fin 100) : idx_main_v66 (ix2 p0 p1) = ix2 p0 (0 : Fin 1) :=
  funext fun a => Fin.ext (by match a with | ⟨0, _⟩ => rfl | ⟨1, _⟩ => rfl)
theorem e_idx_main_v68 (p0 : Fin 1024) (p1 : Fin 100) (p2 : Fin 768) : idx_main_v68 (ix3 p0 p1 p2) = ix3 p0 (0 : Fin 1) p2 :=
  funext fun a => Fin.ext (by match a with | ⟨0, _⟩ => rfl | ⟨1, _⟩ => rfl | ⟨2, _⟩ => rfl)
theorem e_idx_main_v70 (p0 : Fin 1024) (p1 : Fin 100) (p2 : Fin 1) : idx_main_v70 (ix3 p0 p1 p2) = ix2 p0 p1 :=
  funext fun a => Fin.ext (by match a with | ⟨0, _⟩ => rfl | ⟨1, _⟩ => rfl)
theorem e_idx_main_v71 (p0 : Fin 1024) (p1 : Fin 100) (p2 : Fin 768) : idx_main_v71 (ix3 p0 p1 p2) = ix3 p0 p1 (0 : Fin 1) :=
  funext fun a => Fin.ext (by match a with | ⟨0, _⟩ => rfl | ⟨1, _⟩ => rfl | ⟨2, _⟩ => rfl)
theorem e_idx_main_v73 (p0 : Fin 1024) (p1 : Fin 768) (k : Fin 100) : idx_main_v73 (ix2 p0 p1) k = ix3 p0 k p1 :=
  funext fun a => Fin.ext (by match a with | ⟨0, _⟩ => rfl | ⟨1, _⟩ => rfl | ⟨2, _⟩ => rfl)
theorem e_idx_main_v74 (p0 : Fin 1024) (p1 : Fin 1) (p2 : Fin 768) : idx_main_v74 (ix3 p0 p1 p2) = ix2 p0 p2 :=
  funext fun a => Fin.ext (by match a with | ⟨0, _⟩ => rfl | ⟨1, _⟩ => rfl)

/-! ## Each operation read at coordinates -/

theorem at_main_v0 (x0 : (⟨S1024x100x768, .f32⟩ : BufTy).Contents (Elt Ideal)) (p0 : Fin 1024) (p1 : Fin 100) :
    val_main_v0 (F := Ideal) x0 (ix2 p0 p1) = (val_main_cst (F := Ideal)) (Shape.Idx.first h_S_) + ∑ k : Fin 768, x0 (ix3 p0 p1 k) := by
  rw [val_main_v0_apply]
  refine congrArg (HAdd.hAdd _) (Finset.sum_congr rfl fun k _ => ?_)
  rw [e_idx_main_v0]

theorem at_main_v1 (x0 : (⟨S1024x100x768, .f32⟩ : BufTy).Contents (Elt Ideal)) (p0 : Fin 1024) (p1 : Fin 100) (p2 : Fin 1) :
    val_main_v1 (F := Ideal) x0 (ix3 p0 p1 p2) = val_main_v0 (F := Ideal) x0 (ix2 p0 p1) := by
  rw [val_main_v1_apply, e_idx_main_v1]

theorem at_main_v4 (x0 : (⟨S1024x100x768, .f32⟩ : BufTy).Contents (Elt Ideal)) (p0 : Fin 1024) (p1 : Fin 100) (p2 : Fin 768) :
    val_main_v4 (F := Ideal) x0 (ix3 p0 p1 p2) = val_main_v3 (F := Ideal) x0 (ix3 p0 p1 (0 : Fin 1)) := by
  rw [val_main_v4_apply, e_idx_main_v4]

theorem at_main_v7 (x0 : (⟨S1024x100x768, .f32⟩ : BufTy).Contents (Elt Ideal)) (p0 : Fin 1024) (p1 : Fin 100) :
    val_main_v7 (F := Ideal) x0 (ix2 p0 p1) = (val_main_cst_1 (F := Ideal)) (Shape.Idx.first h_S_) + ∑ k : Fin 768, (val_main_v6 (F := Ideal) x0) (ix3 p0 p1 k) := by
  rw [val_main_v7_apply]
  refine congrArg (HAdd.hAdd _) (Finset.sum_congr rfl fun k _ => ?_)
  rw [e_idx_main_v7]

theorem at_main_v8 (x0 : (⟨S1024x100x768, .f32⟩ : BufTy).Contents (Elt Ideal)) (p0 : Fin 1024) (p1 : Fin 100) (p2 : Fin 1) :
    val_main_v8 (F := Ideal) x0 (ix3 p0 p1 p2) = val_main_v7 (F := Ideal) x0 (ix2 p0 p1) := by
  rw [val_main_v8_apply, e_idx_main_v8]

theorem at_main_v11 (x0 : (⟨S1024x100x768, .f32⟩ : BufTy).Contents (Elt Ideal)) (p0 : Fin 1024) (p1 : Fin 100) (p2 : Fin 768) :
    val_main_v11 (F := Ideal) x0 (ix3 p0 p1 p2) = val_main_v3 (F := Ideal) x0 (ix3 p0 p1 (0 : Fin 1)) := by
  rw [val_main_v11_apply, e_idx_main_v11]

theorem at_main_v16 (x0 : (⟨S1024x100x768, .f32⟩ : BufTy).Contents (Elt Ideal)) (p0 : Fin 1024) (p1 : Fin 100) (p2 : Fin 768) :
    val_main_v16 (F := Ideal) x0 (ix3 p0 p1 p2) = val_main_v15 (F := Ideal) x0 (ix3 p0 p1 (0 : Fin 1)) := by
  rw [val_main_v16_apply, e_idx_main_v16]

theorem at_main_v18 (x3 : (⟨S768, .f32⟩ : BufTy).Contents (Elt Ideal)) (p0 : Fin 1) (p1 : Fin 1) (p2 : Fin 768) :
    val_main_v18 (F := Ideal) x3 (ix3 p0 p1 p2) = x3 (ix1 p2) := by
  rw [val_main_v18_apply, e_idx_main_v18]

theorem at_main_v19 (x3 : (⟨S768, .f32⟩ : BufTy).Contents (Elt Ideal)) (p0 : Fin 1024) (p1 : Fin 100) (p2 : Fin 768) :
    val_main_v19 (F := Ideal) x3 (ix3 p0 p1 p2) = val_main_v18 (F := Ideal) x3 (ix3 (0 : Fin 1) (0 : Fin 1) p2) := by
  rw [val_main_v19_apply, e_idx_main_v19]

theorem at_main_v21 (x4 : (⟨S768, .f32⟩ : BufTy).Contents (Elt Ideal)) (p0 : Fin 1) (p1 : Fin 1) (p2 : Fin 768) :
    val_main_v21 (F := Ideal) x4 (ix3 p0 p1 p2) = x4 (ix1 p2) := by
  rw [val_main_v21_apply, e_idx_main_v21]

theorem at_main_v22 (x4 : (⟨S768, .f32⟩ : BufTy).Contents (Elt Ideal)) (p0 : Fin 1024) (p1 : Fin 100) (p2 : Fin 768) :
    val_main_v22 (F := Ideal) x4 (ix3 p0 p1 p2) = val_main_v21 (F := Ideal) x4 (ix3 (0 : Fin 1) (0 : Fin 1) p2) := by
  rw [val_main_v22_apply, e_idx_main_v22]

theorem at_main_v24 (x0 : (⟨S1024x100x768, .f32⟩ : BufTy).Contents (Elt Ideal)) (x3 x4 : (⟨S768, .f32⟩ : BufTy).Contents (Elt Ideal)) (p0 : Fin 1024) (p1 : Fin 100) (p2 : Fin 100) :
    val_main_v24 (F := Ideal) x0 x3 x4 (ix3 p0 p1 p2) = ∑ k : Fin 768, (val_main_v23 (F := Ideal) x0 x3 x4) (ix3 p0 p1 k) * (val_main_v23 (F := Ideal) x0 x3 x4) (ix3 p0 p2 k) := by
  rw [val_main_v24_apply]
  refine Finset.sum_congr rfl fun k _ => ?_
  rw [e_lidx_main_v24, e_ridx_main_v24]

theorem at_main_call0_v1 (x0 : (⟨S1024x100x768, .f32⟩ : BufTy).Contents (Elt Ideal)) (x3 x4 : (⟨S768, .f32⟩ : BufTy).Contents (Elt Ideal)) (p0 : Fin 1024) (p1 : Fin 100) :
    val_main_call0_v1 (F := Ideal) x0 x3 x4 (ix2 p0 p1) = (val_main_call0_cst (F := Ideal)) (Shape.Idx.first h_S_) + ∑ k : Fin 768, (val_main_call0_v0 (F := Ideal) x0 x3 x4) (ix3 p0 p1 k) := by
  rw [val_main_call0_v1_apply]
  refine congrArg (HAdd.hAdd _) (Finset.sum_congr rfl fun k _ => ?_)
  rw [e_idx_main_call0_v1]

theorem at_main_call0_v2 (x0 : (⟨S1024x100x768, .f32⟩ : BufTy).Contents (Elt Ideal)) (x3 x4 : (⟨S768, .f32⟩ : BufTy).Contents (Elt Ideal)) (p0 : Fin 1024) (p1 : Fin 100) (p2 : Fin 1) :
    val_main_call0_v2 (F := Ideal) x0 x3 x4 (ix3 p0 p1 p2) = val_main_call0_v1 (F := Ideal) x0 x3 x4 (ix2 p0 p1) := by
  rw [val_main_call0_v2_apply, e_idx_main_call0_v2]

theorem at_main_v26 (x0 : (⟨S1024x100x768, .f32⟩ : BufTy).Contents (Elt Ideal)) (x3 x4 : (⟨S768, .f32⟩ : BufTy).Contents (Elt Ideal)) (p0 : Fin 1024) (p1 : Fin 1) (p2 : Fin 100) :
    val_main_v26 (F := Ideal) x0 x3 x4 (ix3 p0 p1 p2) = val_main_v25 (F := Ideal) x0 x3 x4 (ix3 p0 p2 p1) := by
  rw [val_main_v26_apply, e_idx_main_v26]

theorem at_main_v27 (x0 : (⟨S1024x100x768, .f32⟩ : BufTy).Contents (Elt Ideal)) (x3 x4 : (⟨S768, .f32⟩ : BufTy).Contents (Elt Ideal)) (p0 : Fin 1024) (p1 : Fin 100) (p2 : Fin 100) :
    val_main_v27 (F := Ideal) x0 x3 x4 (ix3 p0 p1 p2) = val_main_v25 (F := Ideal) x0 x3 x4 (ix3 p0 p1 (0 : Fin 1)) := by
  rw [val_main_v27_apply, e_idx_main_v27]

theorem at_main_v28 (x0 : (⟨S1024x100x768, .f32⟩ : BufTy).Contents (Elt Ideal)) (x3 x4 : (⟨S768, .f32⟩ : BufTy).Contents (Elt Ideal)) (p0 : Fin 1024) (p1 : Fin 100) (p2 : Fin 100) :
    val_main_v28 (F := Ideal) x0 x3 x4 (ix3 p0 p1 p2) = val_main_v26 (F := Ideal) x0 x3 x4 (ix3 p0 (0 : Fin 1) p2) := by
  rw [val_main_v28_apply, e_idx_main_v28]

theorem at_main_v33 (x0 : (⟨S1024x100x768, .f32⟩ : BufTy).Contents (Elt Ideal)) (x3 x4 : (⟨S768, .f32⟩ : BufTy).Contents (Elt Ideal)) (p0 : Fin 1024) (p1 : Fin 100) :
    val_main_v33 (F := Ideal) x0 x3 x4 (ix2 p0 p1) = (val_main_cst_5 (F := Ideal)) (Shape.Idx.first h_S_) + ∑ k : Fin 100, (val_main_v32 (F := Ideal) x0 x3 x4) (ix3 p0 p1 k) := by
  rw [val_main_v33_apply]
  refine congrArg (HAdd.hAdd _) (Finset.sum_congr rfl fun k _ => ?_)
  rw [e_idx_main_v33]

theorem at_main_v35 (x0 : (⟨S1024x100x768, .f32⟩ : BufTy).Contents (Elt Ideal)) (x3 x4 : (⟨S768, .f32⟩ : BufTy).Contents (Elt Ideal)) (p0 : Fin 1024) (p1 : Fin 1) :
    val_main_v35 (F := Ideal) x0 x3 x4 (ix2 p0 p1) = val_main_v34 (F := Ideal) x0 x3 x4 (ix1 p0) := by
  rw [val_main_v35_apply, e_idx_main_v35]

theorem at_main_v37 (x0 : (⟨S1024x100x768, .f32⟩ : BufTy).Contents (Elt Ideal)) (x3 x4 : (⟨S768, .f32⟩ : BufTy).Contents (Elt Ideal)) (p0 : Fin 1024) (p1 : Fin 1) :
    val_main_v37 (F := Ideal) x0 x3 x4 (ix2 p0 p1) = val_main_v36 (F := Ideal) x0 x3 x4 (ix1 p0) := by
  rw [val_main_v37_apply, e_idx_main_v37]

theorem at_main_v38 (x0 : (⟨S1024x100x768, .f32⟩ : BufTy).Contents (Elt Ideal)) (x3 x4 : (⟨S768, .f32⟩ : BufTy).Contents (Elt Ideal)) (p0 : Fin 1024) (p1 : Fin 100) :
    val_main_v38 (F := Ideal) x0 x3 x4 (ix2 p0 p1) = val_main_v37 (F := Ideal) x0 x3 x4 (ix2 p0 (0 : Fin 1)) := by
  rw [val_main_v38_apply, e_idx_main_v38]

theorem at_main_v43 (x0 : (⟨S1024x100x768, .f32⟩ : BufTy).Contents (Elt Ideal)) (x3 x4 : (⟨S768, .f32⟩ : BufTy).Contents (Elt Ideal)) (p0 : Fin 1024) (p1 : Fin 100) :
    val_main_v43 (F := Ideal) x0 x3 x4 (ix2 p0 p1) = val_main_v42 (F := Ideal) x0 x3 x4 (ix2 p0 (0 : Fin 1)) := by
  rw [val_main_v43_apply, e_idx_main_v43]

theorem at_main_v45 (x5 : (⟨S1x100, .f32⟩ : BufTy).Contents (Elt Ideal)) (p0 : Fin 100) (p1 : Fin 1) :
    val_main_v45 (F := Ideal) x5 (ix2 p0 p1) = x5 (ix2 p1 p0) := by
  rw [val_main_v45_apply, e_idx_main_v45]

theorem at_main_v46 (x0 : (⟨S1024x100x768, .f32⟩ : BufTy).Contents (Elt Ideal)) (x3 x4 : (⟨S768, .f32⟩ : BufTy).Contents (Elt Ideal)) (x5 : (⟨S1x100, .f32⟩ : BufTy).Contents (Elt Ideal)) (p0 : Fin 1024) (p1 : Fin 1) :
    val_main_v46 (F := Ideal) x0 x3 x4 x5 (ix2 p0 p1) = ∑ k : Fin 100, (val_main_v44 (F := Ideal) x0 x3 x4) (ix2 p0 k) * (val_main_v45 (F := Ideal) x5) (ix2 k p1) := by
  rw [val_main_v46_apply]
  refine Finset.sum_congr rfl fun k _ => ?_
  rw [e_lidx_main_v46, e_ridx_main_v46]

theorem at_main_v47 (x6 : (⟨S1, .f32⟩ : BufTy).Contents (Elt Ideal)) (p0 : Fin 1) (p1 : Fin 1) :
    val_main_v47 (F := Ideal) x6 (ix2 p0 p1) = x6 (ix1 (0 : Fin 1)) := by
  rw [val_main_v47_apply, e_idx_main_v47]

theorem at_main_v48 (x6 : (⟨S1, .f32⟩ : BufTy).Contents (Elt Ideal)) (p0 : Fin 1024) (p1 : Fin 1) :
    val_main_v48 (F := Ideal) x6 (ix2 p0 p1) = val_main_v47 (F := Ideal) x6 (ix2 (0 : Fin 1) (0 : Fin 1)) := by
  rw [val_main_v48_apply, e_idx_main_v48]

theorem at_main_v56 (x2 : (⟨S1, .f32⟩ : BufTy).Contents (Elt Ideal)) (p0 : Fin 1) (p1 : Fin 1) :
    val_main_v56 (F := Ideal) x2 (ix2 p0 p1) = x2 (ix1 (0 : Fin 1)) := by
  rw [val_main_v56_apply, e_idx_main_v56]

theorem at_main_v57 (x2 : (⟨S1, .f32⟩ : BufTy).Contents (Elt Ideal)) (p0 : Fin 1024) (p1 : Fin 1) :
    val_main_v57 (F := Ideal) x2 (ix2 p0 p1) = val_main_v56 (F := Ideal) x2 (ix2 (0 : Fin 1) (0 : Fin 1)) := by
  rw [val_main_v57_apply, e_idx_main_v57]

theorem at_main_v59 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 100) :
    val_main_v59 (F := Ideal) x0 x2 x3 x4 x5 x6 (ix2 p0 p1) = val_main_v58 (F := Ideal) x0 x2 x3 x4 x5 x6 (ix2 p0 (0 : Fin 1)) := by
  rw [val_main_v59_apply, e_idx_main_v59]

theorem at_main_v62 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) :
    val_main_v62 (F := Ideal) x0 x2 x3 x4 x5 x6 (ix1 p0) = (val_main_cst_11 (F := Ideal)) (Shape.Idx.first h_S_) + ∑ k : Fin 100, (val_main_v61 (F := Ideal) x0 x2 x3 x4 x5 x6) (ix2 p0 k) := by
  rw [val_main_v62_apply]
  refine congrArg (HAdd.hAdd _) (Finset.sum_congr rfl fun k _ => ?_)
  rw [e_idx_main_v62]

theorem at_main_v63 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 1) :
    val_main_v63 (F := Ideal) x0 x2 x3 x4 x5 x6 (ix2 p0 p1) = val_main_v62 (F := Ideal) x0 x2 x3 x4 x5 x6 (ix1 p0) := by
  rw [val_main_v63_apply, e_idx_main_v63]

theorem at_main_v66 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 100) :
    val_main_v66 (F := Ideal) x0 x2 x3 x4 x5 x6 (ix2 p0 p1) = val_main_v65 (F := Ideal) x0 x2 x3 x4 x5 x6 (ix2 p0 (0 : Fin 1)) := by
  rw [val_main_v66_apply, e_idx_main_v66]

theorem at_main_v68 (x1 : (⟨S1024x1x768, .f32⟩ : BufTy).Contents (Elt Ideal)) (p0 : Fin 1024) (p1 : Fin 100) (p2 : Fin 768) :
    val_main_v68 (F := Ideal) x1 (ix3 p0 p1 p2) = x1 (ix3 p0 (0 : Fin 1) p2) := by
  rw [val_main_v68_apply, e_idx_main_v68]

theorem at_main_v70 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 100) (p2 : Fin 1) :
    val_main_v70 (F := Ideal) x0 x2 x3 x4 x5 x6 (ix3 p0 p1 p2) = val_main_v67 (F := Ideal) x0 x2 x3 x4 x5 x6 (ix2 p0 p1) := by
  rw [val_main_v70_apply, e_idx_main_v70]

theorem at_main_v71 (x0 : (⟨S1024x100x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 100) (p2 : Fin 768) :
    val_main_v71 (F := Ideal) x0 x2 x3 x4 x5 x6 (ix3 p0 p1 p2) = val_main_v70 (F := Ideal) x0 x2 x3 x4 x5 x6 (ix3 p0 p1 (0 : Fin 1)) := by
  rw [val_main_v71_apply, e_idx_main_v71]

theorem at_main_v73 (x0 : (⟨S1024x100x768, .f32⟩ : BufTy).Contents (Elt Ideal)) (x1 : (⟨S1024x1x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 768) :
    val_main_v73 (F := Ideal) x0 x1 x2 x3 x4 x5 x6 (ix2 p0 p1) = (val_main_cst_13 (F := Ideal)) (Shape.Idx.first h_S_) + ∑ k : Fin 100, (val_main_v72 (F := Ideal) x0 x1 x2 x3 x4 x5 x6) (ix3 p0 k p1) := by
  rw [val_main_v73_apply]
  refine congrArg (HAdd.hAdd _) (Finset.sum_congr rfl fun k _ => ?_)
  rw [e_idx_main_v73]

theorem at_main_v74 (x0 : (⟨S1024x100x768, .f32⟩ : BufTy).Contents (Elt Ideal)) (x1 : (⟨S1024x1x768, .f32⟩ : BufTy).Contents (Elt Ideal)) (x2 : (⟨S1, .f32⟩ : BufTy).Contents (Elt Ideal)) (x3 x4 : (⟨S768, .f32⟩ : BufTy).Contents (Elt Ideal)) (x5 : (⟨S1x100, .f32⟩ : BufTy).Contents (Elt Ideal)) (x6 : (⟨S1, .f32⟩ : BufTy).Contents (Elt Ideal)) (p0 : Fin 1024) (p1 : Fin 1) (p2 : Fin 768) :
    val_main_v74 (F := Ideal) x0 x1 x2 x3 x4 x5 x6 (ix3 p0 p1 p2) = val_main_v73 (F := Ideal) x0 x1 x2 x3 x4 x5 x6 (ix2 p0 p2) := by
  rw [val_main_v74_apply, e_idx_main_v74]

end Cert.ReferenceIdeal.At

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefValue.lean ====
import proofs.«122440_j46273977647540_1_alg».proof.Proof.RefReadP
import proofs.«122440_j46273977647540_1_alg».proof.Proof.RefAt
import proofs.«122440_j46273977647540_1_alg».proof.Proof.Spec
import proofs.«122440_j46273977647540_1_alg».proof.Proof.Whole
import proofs.«122440_j46273977647540_1_alg».proof.Proof.LibScatterConst
import proofs.«122440_j46273977647540_1_alg».proof.Proof.LibRowMin
import Idealize.ShloMosaic.Lib.ValueIdx
import Idealize.ShloMosaic.PureOps.Ideal.Laws

/-
  The reference's result, read entry by entry, is the whole result of its arguments.

  The reference computes on all 1024 batch elements at once.  Read at the coordinates of batch element B, its
  operations are the specification's: the normalised rows by a division by the square root (which the positive variance
  makes the same rows as the reciprocal square root gives), the densities from the contraction over the columns, their
  maximum and minimum as folds from −∞ and +∞, the logistic function spelt as 1 / (1 + exp (−x)), the gates, the
  weights and the shifted centre.  Each sum of the reference starts from the float zero, which is the number 0.
-/

noncomputable section

open scoped BigOperators

namespace Cert.ReferenceIdeal.Whole

open Cert.ReferenceIdeal Cert.ReferenceIdeal.Gen Cert.ReferenceIdeal.ReadP Cert.ReferenceIdeal.At
open Idealize.ShloMosaic Idealize.ShloMosaic.ValueIdx

/-- The normalised rows of batch element B, as the reference computes them. -/
def rowsOf (x0 : (⟨S1024x100x768, .f32⟩ : BufTy).Contents (Elt Ideal)) (x3 x4 : (⟨S768, .f32⟩ : BufTy).Contents (Elt Ideal)) (B : Fin 1024) : Fin 100 → Fin 768 → EReal :=
  fun n d => val_main_v23 (F := Ideal) x0 x3 x4 (ix3 B n d)

/-- The densities of batch element B, as the reference computes them. -/
def densOf (x0 : (⟨S1024x100x768, .f32⟩ : BufTy).Contents (Elt Ideal)) (x3 x4 : (⟨S768, .f32⟩ : BufTy).Contents (Elt Ideal)) (B : Fin 1024) : Fin 100 → EReal :=
  fun n => val_main_v33 (F := Ideal) x0 x3 x4 (ix2 B n)

/-- The normalised rows at (B, n, d): by the division by the square root. -/
theorem rows_at (x0 : (⟨S1024x100x768, .f32⟩ : BufTy).Contents (Elt Ideal)) (x3 x4 : (⟨S768, .f32⟩ : BufTy).Contents (Elt Ideal)) (B : Fin 1024) (n : Fin 100) (d : Fin 768) :
    val_main_v23 (F := Ideal) x0 x3 x4 (ix3 B n d)
      = Cert.Spec.rowsDiv (fun n d => x0 (ix3 B n d)) (fun d => x3 (ix1 d)) (fun d => x4 (ix1 d)) n d := by
  simp only [val_main_v23_apply, val_main_v20_apply, val_main_v17_apply, val_main_v12_apply, val_main_v15_apply,
    val_main_v14_apply, val_main_v10_apply, val_main_v6_apply, val_main_v5_apply, val_main_v3_apply,
    val_main_v13_apply, val_main_v9_apply, val_main_v2_apply,
    val_main_cst_3_apply, val_main_cst_2_apply, val_main_cst_1_apply, val_main_cst_0_apply, val_main_cst_apply,
    at_main_v22, at_main_v21, at_main_v19, at_main_v18, at_main_v11, at_main_v16, at_main_v8, at_main_v7, at_main_v4,
    at_main_v1, at_main_v0, Ideal.ofBits_def, Cert.Spec.zero_add_lit]
  rfl

/-- The density of row n of batch element B is the specification's density of the reference's normalised rows. -/
theorem dens_at (x0 : (⟨S1024x100x768, .f32⟩ : BufTy).Contents (Elt Ideal)) (x3 x4 : (⟨S768, .f32⟩ : BufTy).Contents (Elt Ideal)) (B : Fin 1024) (n : Fin 100) :
    val_main_v33 (F := Ideal) x0 x3 x4 (ix2 B n) = Cert.Spec.dens (rowsOf x0 x3 x4 B) n := by
  simp only [at_main_v33, val_main_cst_5_apply, val_main_v32_apply, at_main_v24, val_main_v31_apply, val_main_v30_apply,
    val_main_cst_4_apply, val_main_v29_apply, at_main_v27, at_main_v28, at_main_v26, val_main_v25_apply, at_main_call0_v2,
    at_main_call0_v1, val_main_call0_cst_apply, val_main_call0_v0_apply, Ideal.ofBits_def, Cert.Spec.zero_add_lit]
  rfl

/-- The kept maximum at (B, 0): the largest density of batch element B. -/
theorem max_at (x0 : (⟨S1024x100x768, .f32⟩ : BufTy).Contents (Elt Ideal)) (x3 x4 : (⟨S768, .f32⟩ : BufTy).Contents (Elt Ideal)) (B : Fin 1024) :
    val_main_v35 (F := Ideal) x0 x3 x4 (ix2 B (0 : Fin 1)) = Cert.Spec.densMax (densOf x0 x3 x4 B) := by
  rw [at_main_v35]
  unfold val_main_v34
  rw [Cert.ScatterConst.hostReduce_max_rows _ _ _ (show (⟨2, ![1024, 100]⟩ : Shape).Reduces [1] ⟨1, ![1024]⟩ by decide)]
  rfl

/-- The kept minimum at (B, 0): the smallest density of batch element B. -/
theorem min_at (x0 : (⟨S1024x100x768, .f32⟩ : BufTy).Contents (Elt Ideal)) (x3 x4 : (⟨S768, .f32⟩ : BufTy).Contents (Elt Ideal)) (B : Fin 1024) :
    val_main_v37 (F := Ideal) x0 x3 x4 (ix2 B (0 : Fin 1)) = Cert.Spec.densMin (densOf x0 x3 x4 B) := by
  rw [at_main_v37]
  unfold val_main_v36
  rw [Cert.RowMin.hostReduce_min_rows _ _ _ (show (⟨2, ![1024, 100]⟩ : Shape).Reduces [1] ⟨1, ![1024]⟩ by decide)]
  rfl

/-- The scaled densities of batch element B, as the reference computes them. -/
def scaledOf (x0 : (⟨S1024x100x768, .f32⟩ : BufTy).Contents (Elt Ideal)) (x3 x4 : (⟨S768, .f32⟩ : BufTy).Contents (Elt Ideal)) (B : Fin 1024) : Fin 100 → EReal :=
  fun n => val_main_v44 (F := Ideal) x0 x3 x4 (ix2 B n)

/-- The scaled density of row n: (density − minimum) / (maximum − minimum + constant). -/
theorem scaled_at (x0 : (⟨S1024x100x768, .f32⟩ : BufTy).Contents (Elt Ideal)) (x3 x4 : (⟨S768, .f32⟩ : BufTy).Contents (Elt Ideal)) (B : Fin 1024) (n : Fin 100) :
    val_main_v44 (F := Ideal) x0 x3 x4 (ix2 B n)
      = Cert.Spec.scaled (densOf x0 x3 x4 B) (val_main_v35 (F := Ideal) x0 x3 x4 (ix2 B (0 : Fin 1)))
          (val_main_v37 (F := Ideal) x0 x3 x4 (ix2 B (0 : Fin 1))) n := by
  simp only [val_main_v44_apply, at_main_v43, val_main_v42_apply, val_main_v41_apply, val_main_cst_8_apply, val_main_v40_apply,
    val_main_v39_apply, at_main_v38, Ideal.ofBits_def]
  rfl

/-- The threshold of batch element B: the logistic function, spelt 1 / (1 + exp (−x)), of the weighted sum of the scaled
    densities plus the bias, times the gain. -/
theorem thr_at (x0 : (⟨S1024x100x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) :
    val_main_v58 (F := Ideal) x0 x2 x3 x4 x5 x6 (ix2 B (0 : Fin 1))
      = Cert.Spec.thr (scaledOf x0 x3 x4 B) (fun n => x5 (ix2 (0 : Fin 1) n)) (x6 (ix1 (0 : Fin 1))) (x2 (ix1 (0 : Fin 1))) := by
  simp only [val_main_v58_apply, at_main_v57, at_main_v56, val_main_v55_apply, val_main_v54_apply, val_main_cst_10_apply,
    val_main_v53_apply, val_main_v52_apply, val_main_cst_9_apply, val_main_v51_apply, val_main_v50_apply, val_main_v49_apply,
    at_main_v48, at_main_v47, at_main_v46, at_main_v45, Ideal.ofBits_def, Cert.Spec.one_eq, Ideal.mulf_def, Ideal.hostDivf_def,
    Ideal.addf_def, Ideal.hostUnary_exp_def, Ideal.hostNegf_def, Ideal.negf_def]
  unfold Cert.Spec.thr Ideal.logistic
  rfl

/-- The gate of row n of batch element B. -/
theorem gate_at (x0 : (⟨S1024x100x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) (n : Fin 100) :
    val_main_v61 (F := Ideal) x0 x2 x3 x4 x5 x6 (ix2 B n)
      = Cert.Spec.gate (scaledOf x0 x3 x4 B) (fun n => x5 (ix2 (0 : Fin 1) n)) (x6 (ix1 (0 : Fin 1))) (x2 (ix1 (0 : Fin 1))) n := by
  simp only [val_main_v61_apply, val_main_call1_v0_apply, val_main_call1_cst_apply, val_main_v60_apply, at_main_v59, Ideal.ofBits_def]
  rw [thr_at]
  rfl

/-- The weight of row n of batch element B. -/
theorem weight_at (x0 : (⟨S1024x100x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) (n : Fin 100) :
    val_main_v67 (F := Ideal) x0 x2 x3 x4 x5 x6 (ix2 B n)
      = Cert.Spec.weight (scaledOf x0 x3 x4 B) (fun n => x5 (ix2 (0 : Fin 1) n)) (x6 (ix1 (0 : Fin 1))) (x2 (ix1 (0 : Fin 1))) n := by
  simp only [val_main_v67_apply, at_main_v66, val_main_v65_apply, val_main_v64_apply, val_main_cst_12_apply, at_main_v63,
    at_main_v62, val_main_cst_11_apply, Ideal.ofBits_def, Cert.Spec.zero_add_lit]
  simp only [gate_at]
  rfl

/-- The result at (B, 0, d) from the normalised rows and the weights. -/
theorem shift_at (x0 : (⟨S1024x100x768, .f32⟩ : BufTy).Contents (Elt Ideal)) (x1 : (⟨S1024x1x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) (d : Fin 768) :
    val_main_v77 (F := Ideal) x0 x1 x2 x3 x4 x5 x6 (ix3 B (0 : Fin 1) d)
      = Cert.Spec.shifted (rowsOf x0 x3 x4 B) (fun n => val_main_v67 (F := Ideal) x0 x2 x3 x4 x5 x6 (ix2 B n))
          (fun d => x1 (ix3 B (0 : Fin 1) d)) d := by
  simp only [val_main_v77_apply, val_main_v76_apply, val_main_v75_apply, val_main_cst_14_apply, at_main_v74, at_main_v73,
    val_main_cst_13_apply, val_main_v72_apply, val_main_v69_apply, at_main_v68, at_main_v71, at_main_v70,
    Ideal.ofBits_def, Cert.Spec.zero_add_lit]
  rfl

/-- The result at (B, 0, d), from the normalised rows, the densities and their maximum and minimum. -/
theorem tail_at (x0 : (⟨S1024x100x768, .f32⟩ : BufTy).Contents (Elt Ideal)) (x1 : (⟨S1024x1x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) (d : Fin 768) :
    val_main_v77 (F := Ideal) x0 x1 x2 x3 x4 x5 x6 (ix3 B (0 : Fin 1) d)
      = Cert.Spec.shifted (rowsOf x0 x3 x4 B)
          (Cert.Spec.weight
            (Cert.Spec.scaled (densOf x0 x3 x4 B) (val_main_v35 (F := Ideal) x0 x3 x4 (ix2 B (0 : Fin 1)))
              (val_main_v37 (F := Ideal) x0 x3 x4 (ix2 B (0 : Fin 1))))
            (fun n => x5 (ix2 (0 : Fin 1) n)) (x6 (ix1 (0 : Fin 1))) (x2 (ix1 (0 : Fin 1))))
          (fun d => x1 (ix3 B (0 : Fin 1) d)) d := by
  have hE : scaledOf x0 x3 x4 B
      = Cert.Spec.scaled (densOf x0 x3 x4 B) (val_main_v35 (F := Ideal) x0 x3 x4 (ix2 B (0 : Fin 1)))
          (val_main_v37 (F := Ideal) x0 x3 x4 (ix2 B (0 : Fin 1))) := funext fun n => scaled_at x0 x3 x4 B n
  have hW : (fun n => val_main_v67 (F := Ideal) x0 x2 x3 x4 x5 x6 (ix2 B n))
      = Cert.Spec.weight (scaledOf x0 x3 x4 B) (fun n => x5 (ix2 (0 : Fin 1) n)) (x6 (ix1 (0 : Fin 1))) (x2 (ix1 (0 : Fin 1))) :=
    funext fun n => weight_at x0 x2 x3 x4 x5 x6 B n
  rw [shift_at, hW, hE]

/-- The reference's result at (B, 0, d) is the specification's result for batch element B at column d. -/
theorem result_at (x0 : (⟨S1024x100x768, .f32⟩ : BufTy).Contents (Elt Ideal)) (x1 : (⟨S1024x1x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) (B : Fin 1024) (d : Fin 768) :
    val_main_v77 (F := Ideal) x0 x1 x2 x3 x4 x5 x6 (ix3 B (0 : Fin 1) d) = Cert.Whole.elem x0 x1 x2 x3 x4 x5 x6 B d := by
  have hY : rowsOf x0 x3 x4 B = Cert.Spec.rows (fun n d => x0 (ix3 B n d)) (fun d => x3 (ix1 d)) (fun d => x4 (ix1 d)) := by
    funext n d
    exact (rows_at x0 x3 x4 B n d).trans (congrFun (congrFun (Cert.Spec.rowsDiv_eq_rows _ _ _) n) d)
  have hD : densOf x0 x3 x4 B
      = Cert.Spec.dens (Cert.Spec.rows (fun n d => x0 (ix3 B n d)) (fun d => x3 (ix1 d)) (fun d => x4 (ix1 d))) :=
    funext fun n => (dens_at x0 x3 x4 B n).trans (by rw [hY])
  rw [tail_at, max_at, min_at, hD, hY]
  rfl

/-- The reference's result array is the whole result of its arguments. -/
theorem result_eq (x0 : (⟨S1024x100x768, .f32⟩ : BufTy).Contents (Elt Ideal)) (x1 : (⟨S1024x1x768, .f32⟩ : BufTy).Contents (Elt Ideal)) (x2 : (⟨S1, .f32⟩ : BufTy).Contents (Elt Ideal))
    (x3 x4 : (⟨S768, .f32⟩ : BufTy).Contents (Elt Ideal)) (x5 : (⟨S1x100, .f32⟩ : BufTy).Contents (Elt Ideal))
    (x6 : (⟨S1, .f32⟩ : BufTy).Contents (Elt Ideal)) :
    val_main_v77 (F := Ideal) x0 x1 x2 x3 x4 x5 x6 = Cert.Whole.G x0 x1 x2 x3 x4 x5 x6 := by
  funext i
  obtain ⟨B, z, d, rfl⟩ : ∃ (B : Fin 1024) (z : Fin 1) (d : Fin 768), i = ix3 B z d := ⟨i 0, i 1, i 2, eq_ix3 i⟩
  obtain rfl : z = 0 := Subsingleton.elim _ _
  rw [result_at, Cert.Whole.G_apply x0 x1 x2 x3 x4 x5 x6 (ix3 B (0 : Fin 1) d) B d rfl rfl]

end Cert.ReferenceIdeal.Whole

end
-- ==== Proof.lean ====
/-
  A kernel that works on blocks of 16 batch elements against a reference that works on all 1024 at once: both compute,
  for every batch element, the same function of its 100 × 768 matrix, its centre and the shared parameters.

  Every row of the matrix is normalised (mean removed, divided by the square root of the variance plus a constant,
  scaled and shifted); the rows' pairwise cosines are summed into one density per row; the densities are mapped affinely
  by their minimum and maximum; a threshold is the logistic function of their weighted sum plus a bias, times a gain; each
  row's gate is the positive part of its density minus the threshold, divided by the sum of the gates plus a constant; and
  the result is the centre plus one hundredth of the gate-weighted sum of (normalised row − centre).

  The two programs differ in two places.  The kernel multiplies by the reciprocal square root where the reference divides
  by the square root: on the extended reals the two agree whenever the argument is positive, and the variance plus the
  constant is positive because a sum of squares is not negative (Spec.lean).  The kernel applies the logistic function
  where the reference spells 1 / (1 + exp (−x)): on the extended reals that is the logistic function's definition.
  Everything else is the same arithmetic with the same constants, in another arrangement: sums taken block by block or
  over the whole array are the same sums.

  The kernel's side: the value its body stores, entry by entry (KernelRows, KernelDens, KernelTail), and the 64 blocks
  assembled into the result array (KernelArray).  The reference's side: its operations read at coordinates (RefAt) and
  composed (RefValue).  Both arrays are the one function Cert.Whole.G of the arguments (Whole.lean).
-/
import proofs.«122440_j46273977647540_1_alg».proof.Defs
import proofs.«122440_j46273977647540_1_alg».proof.Proof.Gen.Kernel
import proofs.«122440_j46273977647540_1_alg».proof.Proof.Gen.Kernel.Skeleton
import proofs.«122440_j46273977647540_1_alg».proof.Proof.Gen.Kernel.Launch
import proofs.«122440_j46273977647540_1_alg».proof.Proof.Gen.Kernel.Points
import proofs.«122440_j46273977647540_1_alg».proof.Proof.Gen.Kernel.Frame
import proofs.«122440_j46273977647540_1_alg».proof.Proof.Gen.KernelIdeal
import proofs.«122440_j46273977647540_1_alg».proof.Proof.Gen.KernelIdeal.Skeleton
import proofs.«122440_j46273977647540_1_alg».proof.Proof.Gen.KernelIdeal.Launch
import proofs.«122440_j46273977647540_1_alg».proof.Proof.Gen.KernelIdeal.Points
import proofs.«122440_j46273977647540_1_alg».proof.Proof.Gen.KernelIdeal.Frame
import proofs.«122440_j46273977647540_1_alg».proof.Proof.Gen.KernelIdeal.Value
import proofs.«122440_j46273977647540_1_alg».proof.Proof.Gen.ReferenceIdeal
import proofs.«122440_j46273977647540_1_alg».proof.Proof.Gen.Pre_finite_inputs
import proofs.«122440_j46273977647540_1_alg».proof.Proof.RefRunP
import proofs.«122440_j46273977647540_1_alg».proof.Proof.RefReadP
import proofs.«122440_j46273977647540_1_alg».proof.Proof.KernelArray
import proofs.«122440_j46273977647540_1_alg».proof.Proof.RefValue
import Idealize.ShloMosaic.Adequacy
import Idealize.ShloMosaic.Init

noncomputable section

namespace Cert.Proof

open Idealize.ShloMosaic Idealize.SL.Sem

/-- The kernel as printed runs, nothing faulting, and leaves its arguments unchanged. -/
theorem frame_kernel : Cert.frame_Kernel := fun m ρ _ => Cert.Kernel.Gen.frame m ρ

/-- The idealized kernel runs, nothing faulting, and leaves its arguments unchanged. -/
theorem frame_kernelIdeal : Cert.frame_KernelIdeal := fun m ρ _ => Cert.KernelIdeal.Gen.frame m ρ

/-- The idealized reference runs, nothing faulting, and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the whole result of the arguments in their
    result arrays. -/
theorem algebraic : Cert.algebraic_KernelIdeal_ReferenceIdeal := by
  intro m ρ m' ρ' _ hagree
  refine ⟨_, Cert.KernelIdeal.Block.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v77_eq, Cert.ReferenceIdeal.Whole.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
